-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_cst) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_cst_2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x20 : Shape := ⟨2, ![128, 20]⟩
abbrev S20 : Shape := ⟨1, ![20]⟩
abbrev S20x20 : Shape := ⟨2, ![20, 20]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x20 : S_.BroadcastsInDim S128x20 (![] : Fin 0 → Fin S128x20.rank)
  reducesTo_S128x20_S_d0_1 : S128x20.ReducesTo [0, 1] S_
  bcast_S_S20 : S_.BroadcastsInDim S20 (![] : Fin 0 → Fin S20.rank)
  reducesTo_S20_S_d0 : S20.ReducesTo [0] S_
  bcast_S_S20x20 : S_.BroadcastsInDim S20x20 (![] : Fin 0 → Fin S20x20.rank)
  reducesTo_S20x20_S_d0_1 : S20x20.ReducesTo [0, 1] S_

variable [Facts]

def fn_part2 {F : FTy → Type} [FloatOps F] (main_arg7 : FVec F S128x20 .f32) (main_arg8 : FVec F S20 .f32) (main_arg9 : FVec F S20x20 .f32) (main_v33 : IVec S_ 1) : IVec S_ 1 :=
  let main_v34 : FVec F S128x20 .f32 := Host.absf main_arg7
  let main_cst_12 : FVec F S_ .f32 := constant S_ .f32 0x7F800000#32
  let main_v35 : FVec F S128x20 .f32 := broadcastInDim S128x20 ![] bcast_S_S128x20 main_cst_12
  let main_v36 : IVec S128x20 1 := cmpf .olt main_v34 main_v35
  let main_c_13 : IVec S_ 1 := constantI S_ 1 1#1
  let main_v37 : IVec S_ 1 := (fun x v => Host.reduce IntOp.andi x v reducesTo_S128x20_S_d0_1 h_S_) main_v36 main_c_13
  let main_v38 : IVec S_ 1 := andi main_v33 main_v37
  let main_v39 : FVec F S20 .f32 := Host.absf main_arg8
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_v44 : FVec F S20x20 .f32 := Host.absf main_arg9
  let main_cst_16 : FVec F S_ .f32 := constant S_ .f32 0x7F800000#32
  let main_v45 : FVec F S20x20 .f32 := broadcastInDim S20x20 ![] bcast_S_S20x20 main_cst_16
  let main_v46 : IVec S20x20 1 := cmpf .olt main_v44 main_v45
  let main_c_17 : IVec S_ 1 := constantI S_ 1 1#1
  let main_v47 : IVec S_ 1 := (fun x v => Host.reduce IntOp.andi x v reducesTo_S20x20_S_d0_1 h_S_) main_v46 main_c_17
  let main_v48 : IVec S_ 1 := andi main_v43 main_v47
  main_v48

def fn_part1 {F : FTy → Type} [FloatOps F] (main_arg4 : FVec F S256 .f32) (main_arg5 : FVec F S256x128 .f32) (main_arg6 : FVec F S128 .f32) (main_arg7 : FVec F S128x20 .f32) (main_arg8 : FVec F S20 .f32) (main_arg9 : FVec F S20x20 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S65536x512 .f32) (main_arg1 : FVec F S512x512 .f32) (main_arg2 : FVec F S512 .f32) (main_arg3 : FVec F S512x256 .f32) (main_arg4 : FVec F S256 .f32) (main_arg5 : FVec F S256x128 .f32) (main_arg6 : FVec F S128 .f32) (main_arg7 : FVec F S128x20 .f32) (main_arg8 : FVec F S20 .f32) (main_arg9 : FVec F S20x20 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_v13 main_v16
-- ==== Kernel.lean ====
abbrev S65536x512 : Shape := ⟨2, ![65536, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x20 : Shape := ⟨2, ![128, 20]⟩
abbrev S20 : Shape := ⟨1, ![20]⟩
abbrev S20x20 : Shape := ⟨2, ![20, 20]⟩
abbrev S65536x20x20 : Shape := ⟨3, ![65536, 20, 20]⟩
abbrev S65536x20 : Shape := ⟨2, ![65536, 20]⟩
abbrev S512x20x20 : Shape := ⟨3, ![512, 20, 20]⟩
abbrev S512x20 : Shape := ⟨2, ![512, 20]⟩
abbrev S1x512 : Shape := ⟨2, ![1, 512]⟩
abbrev S1x256 : Shape := ⟨2, ![1, 256]⟩
abbrev S512x128 : Shape := ⟨2, ![512, 128]⟩
abbrev S1x128 : Shape := ⟨2, ![1, 128]⟩
abbrev S1x20 : Shape := ⟨2, ![1, 20]⟩
abbrev S512x20x1 : Shape := ⟨3, ![512, 20, 1]⟩
abbrev S512x1x20 : Shape := ⟨3, ![512, 1, 20]⟩
abbrev S1x20x20 : Shape := ⟨3, ![1, 20, 20]⟩
abbrev S_ : Shape := ⟨0, ![]⟩

abbrev nBuf : Space → Nat
  | .hbm => 14
  | .vmem => 17
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x20, .f32⟩
  | .hbm, ⟨8, _⟩ => ⟨S20, .f32⟩
  | .hbm, ⟨9, _⟩ => ⟨S20x20, .f32⟩
  | .hbm, ⟨10, _⟩ => ⟨S65536x20x20, .f32⟩
  | .hbm, ⟨11, _⟩ => ⟨S65536x20, .f32⟩
  | .hbm, ⟨12, _⟩ => ⟨S65536x20, .f32⟩
  | .hbm, ⟨13, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512, .f32⟩
  | .local _ .vmem, ⟨4, _⟩ => ⟨S512x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S128x20, .f32⟩
  | .local _ .vmem, ⟨9, _⟩ => ⟨S20, .f32⟩
  | .local _ .vmem, ⟨10, _⟩ => ⟨S20x20, .f32⟩
  | .local _ .vmem, ⟨11, _⟩ => ⟨S512x20x20, .f32⟩
  | .local _ .vmem, ⟨12, _⟩ => ⟨S512x20x20, .f32⟩
  | .local _ .vmem, ⟨13, _⟩ => ⟨S512x20, .f32⟩
  | .local _ .vmem, ⟨14, _⟩ => ⟨S512x20, .f32⟩
  | .local _ .vmem, ⟨15, _⟩ => ⟨S512x20, .f32⟩
  | .local _ .vmem, ⟨16, _⟩ => ⟨S512x20, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_cst : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S20x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x20x20 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x20 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x20 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x20_S128x20_0_0 : ∀ a, (![0, 0] : Fin 2 → Nat) a + S128x20.size a ≤ S128x20.size a
  h_S128x20 : 0 < S128x20.numel
  inb_S20_S20_0 : ∀ a, (![0] : Fin 1 → Nat) a + S20.size a ≤ S20.size a
  h_S20 : 0 < S20.numel
  shapeCasts_S20_S1x20 : S20.ShapeCasts S1x20
  broadcasts_S1x20_S512x20 : S1x20.Broadcasts S512x20
  natLt_1_32 : 1 < 32
  inb_S20x20_S20x20_0_0 : ∀ a, (![0, 0] : Fin 2 → Nat) a + S20x20.size a ≤ S20x20.size a
  h_S20x20 : 0 < S20x20.numel
  shapeCasts_S512x20_S512x20x1 : S512x20.ShapeCasts S512x20x1
  shapeCasts_S512x20_S512x1x20 : S512x20.ShapeCasts S512x1x20
  broadcasts_S512x20x1_S512x20x20 : S512x20x1.Broadcasts S512x20x20
  broadcasts_S512x1x20_S512x20x20 : S512x1x20.Broadcasts S512x20x20
  shapeCasts_S20x20_S1x20x20 : S20x20.ShapeCasts S1x20x20
  broadcasts_S1x20x20_S512x20x20 : S1x20x20.Broadcasts S512x20x20
  inb_S512x20x20_S512x20x20_0_0_0 : ∀ a, (![0, 0, 0] : Fin 3 → Nat) a + S512x20x20.size a ≤ S512x20x20.size a
  h_S512x20x20 : 0 < S512x20x20.numel
  inb_S512x20_S512x20_0_0 : ∀ a, (![0, 0] : Fin 2 → Nat) a + S512x20.size a ≤ S512x20.size a
  h_S512x20 : 0 < S512x20.numel
  dot_S512x512_S512x512_S512x512_1_0_0_1_n_n_wf : DotDims.WF S512x512 S512x512 S512x512 [1] [0] [0] [1] [] []
  dot_S512x512_S512x256_S512x256_1_0_0_1_n_n_wf : DotDims.WF S512x512 S512x256 S512x256 [1] [0] [0] [1] [] []
  dot_S512x256_S256x128_S512x128_1_0_0_1_n_n_wf : DotDims.WF S512x256 S256x128 S512x128 [1] [0] [0] [1] [] []
  dot_S512x128_S128x20_S512x20_1_0_0_1_n_n_wf : DotDims.WF S512x128 S128x20 S512x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x20.size a ≤ S128x20.size a
  hwx0_7 : ∀ i : grid0.Coords, EltTy.bits .f32 = 32 ∨ (Rect.block (s := S128x20) S128x20.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S20.size a ≤ S20.size a
  hwx0_8 : ∀ i : grid0.Coords, EltTy.bits .f32 = 32 ∨ (Rect.block (s := S20) S20.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S20x20.size a ≤ S20x20.size a
  hwx0_9 : ∀ i : grid0.Coords, EltTy.bits .f32 = 32 ∨ (Rect.block (s := S20x20) S20x20.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x20x20.size a ≤ S65536x20x20.size a
  hwx0_10 : ∀ i : grid0.Coords, EltTy.bits .f32 = 32 ∨ (Rect.block (s := S65536x20x20) S512x20x20.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x20.size a ≤ S65536x20.size a
  hwx0_11 : ∀ i : grid0.Coords, EltTy.bits .f32 = 32 ∨ (Rect.block (s := S65536x20) S512x20.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x20.size a ≤ S65536x20.size a
  hwx0_12 : ∀ i : grid0.Coords, EltTy.bits .f32 = 32 ∨ (Rect.block (s := S65536x20) S512x20.size (cc0_transform_12 i) (hinb0_12 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x20_S512x20_1_0_0_1_n_n : DotDims S512x128 S128x20 S512x20 where
  lhsContracting := [1]
  rhsContracting := [0]
  lhsNonContracting := [0]
  rhsNonContracting := [1]
  lhsBatch := []
  rhsBatch := []
  wf := dot_S512x128_S128x20_S512x20_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x20.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S20x20.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S512x20x20.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S512x20.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_2) S512x20.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x20 : Shape := ⟨2, ![128, 20]⟩
abbrev S20 : Shape := ⟨1, ![20]⟩
abbrev S20x20 : Shape := ⟨2, ![20, 20]⟩
abbrev S1x512 : Shape := ⟨2, ![1, 512]⟩
abbrev S_ : Shape := ⟨0, ![]⟩
abbrev S65536x256 : Shape := ⟨2, ![65536, 256]⟩
abbrev S1x256 : Shape := ⟨2, ![1, 256]⟩
abbrev S65536x128 : Shape := ⟨2, ![65536, 128]⟩
abbrev S1x128 : Shape := ⟨2, ![1, 128]⟩
abbrev S65536x20 : Shape := ⟨2, ![65536, 20]⟩
abbrev S1x20 : Shape := ⟨2, ![1, 20]⟩
abbrev S65536x20x1 : Shape := ⟨3, ![65536, 20, 1]⟩
abbrev S65536x1x20 : Shape := ⟨3, ![65536, 1, 20]⟩
abbrev S65536x20x20 : Shape := ⟨3, ![65536, 20, 20]⟩
abbrev S1x20x20 : Shape := ⟨3, ![1, 20, 20]⟩

abbrev nBuf : Space → Nat
  | .hbm => 56
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x20, .f32⟩
  | .hbm, ⟨8, _⟩ => ⟨S20, .f32⟩
  | .hbm, ⟨9, _⟩ => ⟨S20x20, .f32⟩
  | .hbm, ⟨10, _⟩ => ⟨S65536x512, .f32⟩
  | .hbm, ⟨11, _⟩ => ⟨S1x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536x512, .f32⟩
  | .hbm, ⟨16, _⟩ => ⟨S65536x512, .f32⟩
  | .hbm, ⟨17, _⟩ => ⟨S65536x256, .f32⟩
  | .hbm, ⟨18, _⟩ => ⟨S1x256, .f32⟩
  | .hbm, ⟨19, _⟩ => ⟨S65536x256, .f32⟩
  | .hbm, ⟨20, _⟩ => ⟨S65536x256, .f32⟩
  | .hbm, ⟨21, _⟩ => ⟨S_, .f32⟩
  | .hbm, ⟨22, _⟩ => ⟨S65536x256, .f32⟩
  | .hbm, ⟨23, _⟩ => ⟨S65536x256, .f32⟩
  | .hbm, ⟨24, _⟩ => ⟨S65536x128, .f32⟩
  | .hbm, ⟨25, _⟩ => ⟨S1x128, .f32⟩
  | .hbm, ⟨26, _⟩ => ⟨S65536x128, .f32⟩
  | .hbm, ⟨27, _⟩ => ⟨S65536x128, .f32⟩
  | .hbm, ⟨28, _⟩ => ⟨S_, .f32⟩
  | .hbm, ⟨29, _⟩ => ⟨S65536x128, .f32⟩
  | .hbm, ⟨30, _⟩ => ⟨S65536x128, .f32⟩
  | .hbm, ⟨31, _⟩ => ⟨S65536x20, .f32⟩
  | .hbm, ⟨32, _⟩ => ⟨S1x20, .f32⟩
  | .hbm, ⟨33, _⟩ => ⟨S65536x20, .f32⟩
  | .hbm, ⟨34, _⟩ => ⟨S65536x20, .f32⟩
  | .hbm, ⟨35, _⟩ => ⟨S65536x20, .f32⟩
  | .hbm, ⟨36, _⟩ => ⟨S65536x20, .f32⟩
  | .hbm, ⟨37, _⟩ => ⟨S_, .f32⟩
  | .hbm, ⟨38, _⟩ => ⟨S65536x20, .f32⟩
  | .hbm, ⟨39, _⟩ => ⟨S65536x20, .f32⟩
  | .hbm, ⟨40, _⟩ => ⟨S_, .f32⟩
  | .hbm, ⟨41, _⟩ => ⟨S65536x20, .f32⟩
  | .hbm, ⟨42, _⟩ => ⟨S65536x20, .f32⟩
  | .hbm, ⟨43, _⟩ => ⟨S_, .f32⟩
  | .hbm, ⟨44, _⟩ => ⟨S65536x20, .f32⟩
  | .hbm, ⟨45, _⟩ => ⟨S65536x20, .i1⟩
  | .hbm, ⟨46, _⟩ => ⟨S65536x20, .f32⟩
  | .hbm, ⟨47, _⟩ => ⟨S65536x20x1, .f32⟩
  | .hbm, ⟨48, _⟩ => ⟨S65536x1x20, .f32⟩
  | .hbm, ⟨49, _⟩ => ⟨S65536x20x20, .f32⟩
  | .hbm, ⟨50, _⟩ => ⟨S65536x20x20, .f32⟩
  | .hbm, ⟨51, _⟩ => ⟨S65536x20x20, .f32⟩
  | .hbm, ⟨52, _⟩ => ⟨S1x20x20, .f32⟩
  | .hbm, ⟨53, _⟩ => ⟨S65536x20x20, .f32⟩
  | .hbm, ⟨54, _⟩ => ⟨S65536x20x20, .f32⟩
  | .hbm, ⟨55, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_0 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_2 : Ref sig .tc := ⟨.hbm, 55, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S20_S1x20_1 : S20.BroadcastsInDim S1x20 (![1] : Fin 1 → Fin S1x20.rank)
  bcast_S1x20_S65536x20_0_1 : S1x20.BroadcastsInDim S65536x20 (![0, 1] : Fin 2 → Fin S65536x20.rank)
  bcast_S_S65536x20 : S_.BroadcastsInDim S65536x20 (![] : Fin 0 → Fin S65536x20.rank)
  bcast_S65536x20_S65536x20x1_0_1 : S65536x20.BroadcastsInDim S65536x20x1 (![0, 1] : Fin 2 → Fin S65536x20x1.rank)
  bcast_S65536x20_S65536x1x20_0_2 : S65536x20.BroadcastsInDim S65536x1x20 (![0, 2] : Fin 2 → Fin S65536x1x20.rank)
  bcast_S65536x20x1_S65536x20x20_0_1_2 : S65536x20x1.BroadcastsInDim S65536x20x20 (![0, 1, 2] : Fin 3 → Fin S65536x20x20.rank)
  bcast_S65536x1x20_S65536x20x20_0_1_2 : S65536x1x20.BroadcastsInDim S65536x20x20 (![0, 1, 2] : Fin 3 → Fin S65536x20x20.rank)
  bcast_S20x20_S1x20x20_1_2 : S20x20.BroadcastsInDim S1x20x20 (![1, 2] : Fin 2 → Fin S1x20x20.rank)
  bcast_S1x20x20_S65536x20x20_0_1_2 : S1x20x20.BroadcastsInDim S65536x20x20 (![0, 1, 2] : Fin 3 → Fin S65536x20x20.rank)
  dot_S65536x512_S512x512_S65536x512_1_0_0_1_n_n_wf : DotDims.WF S65536x512 S512x512 S65536x512 [1] [0] [0] [1] [] []
  dot_S65536x512_S512x256_S65536x256_1_0_0_1_n_n_wf : DotDims.WF S65536x512 S512x256 S65536x256 [1] [0] [0] [1] [] []
  dot_S65536x256_S256x128_S65536x128_1_0_0_1_n_n_wf : DotDims.WF S65536x256 S256x128 S65536x128 [1] [0] [0] [1] [] []
  dot_S65536x128_S128x20_S65536x20_1_0_0_1_n_n_wf : DotDims.WF S65536x128 S128x20 S65536x20 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x20_S65536x20_1_0_0_1_n_n : DotDims S65536x128 S128x20 S65536x20 where
  lhsContracting := [1]
  rhsContracting := [0]
  lhsNonContracting := [0]
  rhsNonContracting := [1]
  lhsBatch := []
  rhsBatch := []
  wf := dot_S65536x128_S128x20_S65536x20_1_0_0_1_n_n_wf

class Facts : Prop extends Facts₀ where

variable [Facts]
-- ==== Proof.Decoder.lean ====
/-
  The decoder, one row at a time, on the extended reals.

  A row `x` of 512 numbers goes through three dense layers, each followed by the rectifier `max · 0`
  (512 → 512 → 256 → 128), and a fourth dense layer to 20 logits. A dense layer sends a row `x` to
  `j ↦ (∑ k, x k · W (k, j)) + b j`. The probability of face `j` is the logistic `1 / (1 + e^(-logit j))`; the
  face is kept (1) when that probability exceeds one half and dropped (0) otherwise; the adjacency entry `(a, b)` of
  the row is `face a · face b · adj (a, b)`.

  Every output row depends on its own input row only, so the same three functions of a row describe a block of 512
  rows and the whole array of 65536 rows alike.
-/
import Idealize.ShloMosaic.PureOps.Ideal
import Idealize.ShloMosaic.PureOps.Ideal.Laws
import Idealize.ShloMosaic.Lib.ValueIdx
import Idealize.ShloMosaic.Lib.IdealHost

noncomputable section

namespace Cert.Decoder

open Idealize.ShloMosaic Idealize.ShloMosaic.ValueIdx

/-- A dense layer on one row: `j ↦ (∑ k, x k · W (k, j)) + b j`. -/
def dense {n d : ℕ} (W : (⟨2, ![n, d]⟩ : Shape).Idx → EReal) (b : (⟨1, ![d]⟩ : Shape).Idx → EReal) (x : Fin n → EReal) :
    Fin d → EReal :=
  fun j => (∑ k : Fin n, x k * W (ix2 k j)) + b (ix1 j)

/-- The rectifier on one row. -/
def relu {d : ℕ} (y : Fin d → EReal) : Fin d → EReal := fun j => max (y j) 0

/-- The decoder's weights, biases and the fixed adjacency of the twenty faces. -/
structure Weights where
  W1 : (⟨2, ![512, 512]⟩ : Shape).Idx → EReal
  b1 : (⟨1, ![512]⟩ : Shape).Idx → EReal
  W2 : (⟨2, ![512, 256]⟩ : Shape).Idx → EReal
  b2 : (⟨1, ![256]⟩ : Shape).Idx → EReal
  W3 : (⟨2, ![256, 128]⟩ : Shape).Idx → EReal
  b3 : (⟨1, ![128]⟩ : Shape).Idx → EReal
  W4 : (⟨2, ![128, 20]⟩ : Shape).Idx → EReal
  b4 : (⟨1, ![20]⟩ : Shape).Idx → EReal
  adj : (⟨2, ![20, 20]⟩ : Shape).Idx → EReal

/-- The row after the three rectified layers. -/
def hidden (P : Weights) (x : Fin 512 → EReal) : Fin 128 → EReal :=
  relu (dense P.W3 P.b3 (relu (dense P.W2 P.b2 (relu (dense P.W1 P.b1 x)))))

/-- The twenty logits of a row. -/
def logit (P : Weights) (x : Fin 512 → EReal) : Fin 20 → EReal := dense P.W4 P.b4 (hidden P x)

/-- The twenty face probabilities of a row. -/
def prob (P : Weights) (x : Fin 512 → EReal) : Fin 20 → EReal := fun j => Ideal.logistic (logit P x j)

/-- One when a number exceeds one half, zero otherwise: the comparison's bit read as a number. -/
def aboveHalf (p : EReal) : EReal :=
  FloatOps.uitofp (F := Ideal) .f32 (FloatOps.cmpf (F := Ideal) (φ := .f32) .ogt p (Ideal.ofBits .f32 0x3F000000#32))

/-- The twenty kept-or-dropped faces of a row. -/
def face (P : Weights) (x : Fin 512 → EReal) : Fin 20 → EReal := fun j => aboveHalf (prob P x j)

/-- The adjacency entry `(a, b)` of a row. -/
def pair (P : Weights) (x : Fin 512 → EReal) (a b : Fin 20) : EReal := face P x a * face P x b * P.adj (ix2 a b)

/-- Row `r` of a matrix with 512 columns. -/
def row {N : ℕ} (z : (⟨2, ![N, 512]⟩ : Shape).Idx → EReal) (r : Fin N) : Fin 512 → EReal := fun k => z (ix2 r k)

/-! ## The three results over the whole array -/

/-- The probabilities of every row. -/
def probsOf (P : Weights) (z : (⟨2, ![65536, 512]⟩ : Shape).Idx → EReal) : (⟨2, ![65536, 20]⟩ : Shape).Idx → EReal :=
  fun i => prob P (row z (i 0)) (i 1)

/-- The faces of every row. -/
def facesOf (P : Weights) (z : (⟨2, ![65536, 512]⟩ : Shape).Idx → EReal) : (⟨2, ![65536, 20]⟩ : Shape).Idx → EReal :=
  fun i => face P (row z (i 0)) (i 1)

/-- The adjacency matrices of every row. -/
def pairsOf (P : Weights) (z : (⟨2, ![65536, 512]⟩ : Shape).Idx → EReal) : (⟨3, ![65536, 20, 20]⟩ : Shape).Idx → EReal :=
  fun i => pair P (row z (i 0)) (i 1) (i 2)

theorem probsOf_ix (P : Weights) (z : (⟨2, ![65536, 512]⟩ : Shape).Idx → EReal) (r : Fin 65536) (j : Fin 20) :
    probsOf P z (ix2 r j) = prob P (row z r) j := rfl

theorem facesOf_ix (P : Weights) (z : (⟨2, ![65536, 512]⟩ : Shape).Idx → EReal) (r : Fin 65536) (j : Fin 20) :
    facesOf P z (ix2 r j) = face P (row z r) j := rfl

theorem pairsOf_ix (P : Weights) (z : (⟨2, ![65536, 512]⟩ : Shape).Idx → EReal) (r : Fin 65536) (a b : Fin 20) :
    pairsOf P z (ix3 r a b) = pair P (row z r) a b := rfl

/-! ## Two facts about single numbers -/

/-- The logistic of a number, written with the word of the literal one as the host writes it. -/
theorem logistic_of_words (v : EReal) :
    Ideal.div (Ideal.ofBits .f32 0x3F800000#32) (Ideal.ofBits .f32 0x3F800000#32 + Ideal.exp (-v)) = Ideal.logistic v := by
  rw [Ideal.ofBits_one_f32]
  rfl

/-- A one-bit word widened to 32 bits reads the same signed as the bit reads unsigned. -/
theorem bit_widened (b : BitVec 1) : ((b.setWidth 32).toInt : ℝ) = (b.toNat : ℝ) := by
  have h : (b.setWidth 32).toInt = (b.toNat : ℤ) := by
    revert b
    decide
  rw [h]
  norm_cast

/-- The comparison's bit widened and read signed, as a block computes it, is `aboveHalf`. -/
theorem aboveHalf_widened (p : EReal) :
    FloatOps.sitofp (F := Ideal) .f32
        ((FloatOps.cmpf (F := Ideal) (φ := .f32) .ogt p (Ideal.ofBits .f32 0x3F000000#32)).setWidth 32) = aboveHalf p := by
  show (((FloatOps.cmpf (F := Ideal) (φ := .f32) .ogt p (Ideal.ofBits .f32 0x3F000000#32)).setWidth 32).toInt : ℝ)
      = (((FloatOps.cmpf (F := Ideal) (φ := .f32) .ogt p (Ideal.ofBits .f32 0x3F000000#32)).toNat : ℝ) : EReal)
  rw [bit_widened]

end Cert.Decoder

end
-- ==== Proof.LibMatSum.lean ====
/-
  A matrix product read at an entry, at the ideal values, for any dimension record that contracts the left
  operand's columns with the right operand's rows (no batch axis): the entry `(a, b)` of `A · B` is
  `∑ c, A (a, c) · B (c, b)`, for the host's product and for the matrix unit's product into a zero accumulator alike.
  (The record's well-formedness witness is a proposition, so every such record is the library's plain one.)
-/
import Idealize.ShloMosaic.Lib.StackMember
import Idealize.ShloMosaic.Lib.ValueIdx
import Idealize.ShloMosaic.PureOps.Ideal.Laws

noncomputable section

namespace Idealize.ShloMosaic.MatSum

open Idealize.ShloMosaic Idealize.ShloMosaic.ValueIdx

variable {m k n : Nat} {φ₁ φ₂ : FTy}

/-- A record with the plain product's dimension numbers is the plain record. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The plain record's operand indices at output `(a, b)` and contraction position `c`. -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's product at an entry. -/
theorem dotGeneral_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  rw [eq_plain]
  exact StackMember.dotGeneral_plain_apply prec A B a b

/-- The matrix unit's product into a zero accumulator at an entry. -/
theorem matmul_zero_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (⟨2, ![m, n]⟩ : Shape) .f32 0x00000000#32) (ix2 a b)
      = ∑ c : Fin k, A (ix2 a c) * B (ix2 c b) := by
  rw [eq_plain]
  show FloatOps.matmul _ prec A B (constant _ .f32 0x00000000#32) (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Idealize.ShloMosaic.MatSum

end
-- ==== Proof.LibHostRows.lean ====
/-
  Four readings at an index of host layout operations on matrices, for any extents.

  * A vector of `d` numbers made a `[1, d]` row and then repeated down `N` rows reads, at `(r, j)`, the vector at `j`.
  * The all-zero single-precision word held as a scalar and spread over any shape reads, everywhere, that word's value.
  * Two matrices with the same number of rows laid side by side read, at `(r, k)`, the left one at `(r, k)` when `k` is
    one of its columns and the right one at `(r, k - its width)` otherwise.
  * A column `[a, 1]` viewed as a row `[1, a]` reads, at `(u, i)`, the column at `(i, 0)`.
-/
import Idealize.ShloMosaic.PureOps.Ideal
import Idealize.ShloMosaic.Lib.ValueIdx
import Idealize.ShloMosaic.Lib.IdealHost
import Idealize.ShloMosaic.Lib.Pipeline.Value

noncomputable section

namespace Cert.Lib.HostRows

open Idealize.ShloMosaic Idealize.ShloMosaic.ValueIdx

variable {α : Type}

/-- A vector broadcast to one row and then to every row, at `(r, j)`: the vector at `j`. -/
theorem rowBias_apply {N d : ℕ} (b : (⟨1, ![d]⟩ : Shape).Idx → α)
    (h1 : (⟨1, ![d]⟩ : Shape).BroadcastsInDim ⟨2, ![1, d]⟩ ![1])
    (h2 : (⟨2, ![1, d]⟩ : Shape).BroadcastsInDim ⟨2, ![N, d]⟩ ![0, 1]) (r : Fin N) (j : Fin d) :
    broadcastInDim ⟨2, ![N, d]⟩ ![0, 1] h2 (broadcastInDim ⟨2, ![1, d]⟩ ![1] h1 b) (ix2 r j) = b (ix1 j) := by
  have hj : j.val = if d = 1 then 0 else j.val := by
    split
    · have := j.isLt; omega
    · rfl
  refine (broadcastInDim_apply _ h2 _ (ix2 r j) (ix2 (0 : Fin 1) j) (fun a => ?_)).trans
    (broadcastInDim_apply _ h1 b (ix2 (0 : Fin 1) j) (ix1 j) (fun a => ?_))
  · match a with
    | ⟨0, _⟩ => rfl
    | ⟨1, _⟩ => exact hj
  · match a with
    | ⟨0, _⟩ => exact hj

/-- The zero word as a scalar spread over a shape, anywhere: the word's value. -/
theorem zeroSplat_apply {T : Shape} (h : (⟨0, ![]⟩ : Shape).BroadcastsInDim T ![]) (i : T.Idx) :
    broadcastInDim T ![] h (constant (F := Ideal) ⟨0, ![]⟩ .f32 0x00000000#32) i = Ideal.ofBits .f32 0x00000000#32 := by
  rw [broadcastInDim_scalar_apply]
  rfl

/-- Two matrices side by side, at a column of the left one. -/
theorem sideBySide_left {N a b : ℕ} (x : (⟨2, ![N, a]⟩ : Shape).Idx → α) (y : (⟨2, ![N, b]⟩ : Shape).Idx → α)
    (h : Shape.Concatenates [⟨2, ![N, a]⟩, ⟨2, ![N, b]⟩] ⟨2, ![N, a + b]⟩ (1 : Fin 2)) (r : Fin N) (k : Fin a) :
    concatenate ⟨2, ![N, a + b]⟩ (1 : Fin 2) [⟨⟨2, ![N, a]⟩, x⟩, ⟨⟨2, ![N, b]⟩, y⟩] h
        (ix2 r ⟨k.val, by have := k.isLt; omega⟩) = x (ix2 r k) := by
  refine concatenate_pair_apply_left (t := ⟨2, ![N, a + b]⟩) (s₁ := ⟨2, ![N, a]⟩) (s₂ := ⟨2, ![N, b]⟩) _ x y h _ rfl (ix2 r k) (fun c => ?_)
  match c with
  | ⟨0, _⟩ => rfl
  | ⟨1, _⟩ => rfl

/-- Two matrices side by side, at a column of the right one. -/
theorem sideBySide_right {N a b : ℕ} (x : (⟨2, ![N, a]⟩ : Shape).Idx → α) (y : (⟨2, ![N, b]⟩ : Shape).Idx → α)
    (h : Shape.Concatenates [⟨2, ![N, a]⟩, ⟨2, ![N, b]⟩] ⟨2, ![N, a + b]⟩ (1 : Fin 2)) (r : Fin N) (k : Fin b) :
    concatenate ⟨2, ![N, a + b]⟩ (1 : Fin 2) [⟨⟨2, ![N, a]⟩, x⟩, ⟨⟨2, ![N, b]⟩, y⟩] h
        (ix2 r ⟨a + k.val, by have := k.isLt; omega⟩) = y (ix2 r k) := by
  refine concatenate_pair_apply_right (t := ⟨2, ![N, a + b]⟩) (s₁ := ⟨2, ![N, a]⟩) (s₂ := ⟨2, ![N, b]⟩) _ x y h _ rfl rfl (ix2 r k)
    (fun c hc => ?_) ?_
  · match c with
    | ⟨0, _⟩ => rfl
    | ⟨1, _⟩ => exact absurd rfl hc
  · show k.val + a = a + k.val
    omega

/-- A column viewed as a row, at `(u, i)`: the column at `(i, 0)`. -/
theorem columnAsRow_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

end Cert.Lib.HostRows

end
-- ==== Proof.LibHostDense.lean ====
/-
  A dense layer on the host read at an entry, at the ideal values, for any extents.

  The layer multiplies an `[N, n]` matrix of inputs by an `[n, d]` matrix of weights (contracting the inputs' columns
  with the weights' rows) and adds a bias vector of `d` numbers repeated down the rows. At `(r, j)` that is
  `(∑ k, X (r, k) · W (k, j)) + b j`. With a rectifier behind it — the entrywise maximum with the all-zero word spread
  over the shape — it is the maximum of that number and the zero word's value.
-/
import proofs.«125801_j3453153706364_1_alg».proof.Proof.LibMatSum
import proofs.«125801_j3453153706364_1_alg».proof.Proof.LibHostRows

noncomputable section

namespace Cert.Lib.HostDense

open Idealize.ShloMosaic Idealize.ShloMosaic.ValueIdx Idealize.ShloMosaic.MatSum Cert.Lib.HostRows

variable {N n d : ℕ}

/-- Product plus bias, at `(r, j)`. -/
theorem dense_entry (w : DotDims.WF ⟨2, ![N, n]⟩ ⟨2, ![n, d]⟩ ⟨2, ![N, d]⟩ [1] [0] [0] [1] [] [])
    (X : FVec Ideal ⟨2, ![N, n]⟩ .f32) (W : FVec Ideal ⟨2, ![n, d]⟩ .f32) (b : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![N, d]⟩ ![0, 1]) (r : Fin N) (j : Fin d) :
    addf (Host.dotGeneral (⟨[1], [0], [0], [1], [], [], w⟩ : DotDims ⟨2, ![N, n]⟩ ⟨2, ![n, d]⟩ ⟨2, ![N, d]⟩) none X W)
        (broadcastInDim ⟨2, ![N, d]⟩ ![0, 1] h2 (broadcastInDim ⟨2, ![1, d]⟩ ![1] h1 b)) (ix2 r j)
      = (∑ k : Fin n, X (ix2 r k) * W (ix2 k j)) + b (ix1 j) := by
  rw [addf_apply, dotGeneral_entry, rowBias_apply]

/-- Product plus bias, rectified, at `(r, j)`. -/
theorem denseRelu_entry (w : DotDims.WF ⟨2, ![N, n]⟩ ⟨2, ![n, d]⟩ ⟨2, ![N, d]⟩ [1] [0] [0] [1] [] [])
    (X : FVec Ideal ⟨2, ![N, n]⟩ .f32) (W : FVec Ideal ⟨2, ![n, d]⟩ .f32) (b : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![N, d]⟩ ![0, 1])
    (h0 : (⟨0, ![]⟩ : Shape).BroadcastsInDim ⟨2, ![N, d]⟩ ![]) (r : Fin N) (j : Fin d) :
    maximumf (addf (Host.dotGeneral (⟨[1], [0], [0], [1], [], [], w⟩ : DotDims ⟨2, ![N, n]⟩ ⟨2, ![n, d]⟩ ⟨2, ![N, d]⟩) none X W)
          (broadcastInDim ⟨2, ![N, d]⟩ ![0, 1] h2 (broadcastInDim ⟨2, ![1, d]⟩ ![1] h1 b)))
        (broadcastInDim ⟨2, ![N, d]⟩ ![] h0 (constant (F := Ideal) ⟨0, ![]⟩ .f32 0x00000000#32)) (ix2 r j)
      = max ((∑ k : Fin n, X (ix2 r k) * W (ix2 k j)) + b (ix1 j)) (Ideal.ofBits .f32 0x00000000#32) := by
  rw [maximumf_apply, dense_entry, zeroSplat_apply]

end Cert.Lib.HostDense

end
-- ==== Proof.LibLayer.lean ====
/-
  The elementwise tail of a dense layer read at an entry, at the ideal values, for any extents.

  * A vector of `n` numbers viewed as a one-row matrix and repeated down `a` rows reads, at `(i, j)`, the vector at `j`
    (also when `n = 1`).
  * A float word held as a scalar and spread over any shape reads, everywhere, that word's value.
  * Adding a bias vector to every row and taking the maximum with zero reads, at `(i, j)`, `max (x i j + b j) 0` — for
    the block form (casts and a repeated row, the zero a splatted scalar) and for the host form (two broadcasts of the
    bias, the zero word spread over the matrix) alike.
  * Adding a bias and applying `1 / (1 + exp (-v))` reads, at `(i, j)`, that expression of `x i j + b j` — for the
    block form, which writes the negative as `0 - v`, and for the host form, which negates; on the extended reals
    `0 - v = -v` for every `v`, the infinities included.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«125801_j3453153706364_1_alg».proof.Proof.LibHostRows

noncomputable section

namespace Cert.Lib.Layer

open Idealize.ShloMosaic Idealize.ShloMosaic.ValueIdx

/-- A vector viewed as a one-row matrix and repeated down the rows, at `(i, j)`: the vector at `j`. -/
theorem rowCast_entry {α : Type} {a n : ℕ} (z : (⟨1, ![n]⟩ : Shape).Idx → α)
    (hc : (⟨1, ![n]⟩ : Shape).ShapeCasts ⟨2, ![1, n]⟩) (hb : (⟨2, ![1, n]⟩ : Shape).Broadcasts ⟨2, ![a, n]⟩)
    (i : Fin a) (j : Fin n) :
    broadcastTo ⟨2, ![a, n]⟩ (shapeCast ⟨2, ![1, n]⟩ z hc) hb (ix2 i j) = z (ix1 j) := by
  have hj : j.val = if n = 1 then 0 else j.val := by
    split
    · have := j.isLt; omega
    · rfl
  refine (broadcastTo_apply _ hb (ix2 i j) (ix2 (0 : Fin 1) j) (fun ax => match ax with
    | ⟨0, _⟩ => by show 0 = if (1 : ℕ) = 1 then 0 else i.val; rw [if_pos rfl]
    | ⟨1, _⟩ => hj)).trans ?_
  exact shapeCast_apply z hc _ _ (by
    rw [Shape.rowMajor_val_two, Shape.rowMajor_val_one]
    show j.val = 0 * n + j.val
    omega)

/-- A float word as a scalar spread over a shape, anywhere: the word's value. -/
theorem splat_apply {T : Shape} (w : BitVec 32) (h : (⟨0, ![]⟩ : Shape).BroadcastsInDim T ![]) (i : T.Idx) :
    broadcastInDim T ![] h (constant (F := Ideal) ⟨0, ![]⟩ .f32 w) i = Ideal.ofBits .f32 w := by
  rw [broadcastInDim_scalar_apply]
  rfl

/-- On the extended reals zero minus a number is its negative. -/
theorem zero_sub_eq_neg (x : EReal) : (0 : EReal) - x = -x := by rw [sub_eq_add_neg, zero_add]

variable {a n : ℕ}

/-- A block with a bias row added and the maximum with zero taken, at `(i, j)`. -/
theorem blockBiasRelu_entry (x : FVec Ideal ⟨2, ![a, n]⟩ .f32) (b : FVec Ideal ⟨1, ![n]⟩ .f32)
    (hs : (⟨2, ![a, n]⟩ : Shape).ShapeCasts ⟨2, ![a, n]⟩)
    (hc : (⟨1, ![n]⟩ : Shape).ShapeCasts ⟨2, ![1, n]⟩) (hb : (⟨2, ![1, n]⟩ : Shape).Broadcasts ⟨2, ![a, n]⟩)
    (i : Fin a) (j : Fin n) :
    maximumf (addf (shapeCast ⟨2, ![a, n]⟩ x hs) (broadcastTo ⟨2, ![a, n]⟩ (shapeCast ⟨2, ![1, n]⟩ b hc) hb))
        (broadcast ⟨2, ![a, n]⟩ (Scalar.ofBits (F := Ideal) .f32 0x00000000#32)) (ix2 i j)
      = max (x (ix2 i j) + b (ix1 j)) 0 := by
  show max (shapeCast ⟨2, ![a, n]⟩ x hs (ix2 i j) + broadcastTo ⟨2, ![a, n]⟩ (shapeCast ⟨2, ![1, n]⟩ b hc) hb (ix2 i j))
      (Ideal.ofBits .f32 0x00000000#32) = _
  rw [shapeCast_self, rowCast_entry, Ideal.ofBits_zero_f32]

/-- A matrix with a bias vector broadcast to every row added and the maximum with the spread zero word taken, at `(r, j)`. -/
theorem hostBiasRelu_entry {N : ℕ} (X : FVec Ideal ⟨2, ![N, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![N, n]⟩ ![0, 1])
    (h0 : (⟨0, ![]⟩ : Shape).BroadcastsInDim ⟨2, ![N, n]⟩ ![]) (r : Fin N) (j : Fin n) :
    maximumf (addf X (broadcastInDim ⟨2, ![N, n]⟩ ![0, 1] h2 (broadcastInDim ⟨2, ![1, n]⟩ ![1] h1 b)))
        (broadcastInDim ⟨2, ![N, n]⟩ ![] h0 (constant (F := Ideal) ⟨0, ![]⟩ .f32 0x00000000#32)) (ix2 r j)
      = max (X (ix2 r j) + b (ix1 j)) 0 := by
  show max (X (ix2 r j) + broadcastInDim ⟨2, ![N, n]⟩ ![0, 1] h2 (broadcastInDim ⟨2, ![1, n]⟩ ![1] h1 b) (ix2 r j))
      (broadcastInDim ⟨2, ![N, n]⟩ ![] h0 (constant (F := Ideal) ⟨0, ![]⟩ .f32 0x00000000#32) (ix2 r j)) = _
  rw [Cert.Lib.HostRows.rowBias_apply, splat_apply, Ideal.ofBits_zero_f32]

/-- The logistic expression of a number, with the literal one kept as its word's value. -/
def logisticOf (v : EReal) : EReal :=
  Ideal.div (Ideal.ofBits .f32 0x3F800000#32) (Ideal.ofBits .f32 0x3F800000#32 + Ideal.exp (-v))

/-- A block with a bias row added and `1 / (1 + exp (0 - v))` applied, at `(i, j)`. -/
theorem blockBiasLogistic_entry (x : FVec Ideal ⟨2, ![a, n]⟩ .f32) (b : FVec Ideal ⟨1, ![n]⟩ .f32)
    (hs : (⟨2, ![a, n]⟩ : Shape).ShapeCasts ⟨2, ![a, n]⟩)
    (hc : (⟨1, ![n]⟩ : Shape).ShapeCasts ⟨2, ![1, n]⟩) (hb : (⟨2, ![1, n]⟩ : Shape).Broadcasts ⟨2, ![a, n]⟩)
    (i : Fin a) (j : Fin n) :
    divf (broadcast ⟨2, ![a, n]⟩ (Scalar.ofBits (F := Ideal) .f32 0x3F800000#32))
        (addf (broadcast ⟨2, ![a, n]⟩ (Scalar.ofBits (F := Ideal) .f32 0x3F800000#32))
          (exp (subf (broadcast ⟨2, ![a, n]⟩ (Scalar.ofBits (F := Ideal) .f32 0x00000000#32))
            (addf (shapeCast ⟨2, ![a, n]⟩ x hs) (broadcastTo ⟨2, ![a, n]⟩ (shapeCast ⟨2, ![1, n]⟩ b hc) hb))))) (ix2 i j)
      = logisticOf (x (ix2 i j) + b (ix1 j)) := by
  show Ideal.div (Ideal.ofBits .f32 0x3F800000#32) (Ideal.ofBits .f32 0x3F800000#32
      + Ideal.exp (Ideal.ofBits .f32 0x00000000#32
        - (shapeCast ⟨2, ![a, n]⟩ x hs (ix2 i j) + broadcastTo ⟨2, ![a, n]⟩ (shapeCast ⟨2, ![1, n]⟩ b hc) hb (ix2 i j)))) = _
  rw [shapeCast_self, rowCast_entry, Ideal.ofBits_zero_f32, zero_sub_eq_neg]
  rfl

/-- A matrix with a bias vector broadcast to every row added and `1 / (1 + exp (-v))` applied, at `(r, j)`. -/
theorem hostBiasLogistic_entry {N : ℕ} (X : FVec Ideal ⟨2, ![N, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![N, n]⟩ ![0, 1])
    (h0 h0' : (⟨0, ![]⟩ : Shape).BroadcastsInDim ⟨2, ![N, n]⟩ ![]) (r : Fin N) (j : Fin n) :
    Host.divf (broadcastInDim ⟨2, ![N, n]⟩ ![] h0 (constant (F := Ideal) ⟨0, ![]⟩ .f32 0x3F800000#32))
        (addf (broadcastInDim ⟨2, ![N, n]⟩ ![] h0' (constant (F := Ideal) ⟨0, ![]⟩ .f32 0x3F800000#32))
          (Host.exp (Host.negf (addf X (broadcastInDim ⟨2, ![N, n]⟩ ![0, 1] h2 (broadcastInDim ⟨2, ![1, n]⟩ ![1] h1 b)))))) (ix2 r j)
      = logisticOf (X (ix2 r j) + b (ix1 j)) := by
  show Ideal.div (broadcastInDim ⟨2, ![N, n]⟩ ![] h0 (constant (F := Ideal) ⟨0, ![]⟩ .f32 0x3F800000#32) (ix2 r j))
      (broadcastInDim ⟨2, ![N, n]⟩ ![] h0' (constant (F := Ideal) ⟨0, ![]⟩ .f32 0x3F800000#32) (ix2 r j)
        + Ideal.exp (-(X (ix2 r j) + broadcastInDim ⟨2, ![N, n]⟩ ![0, 1] h2 (broadcastInDim ⟨2, ![1, n]⟩ ![1] h1 b) (ix2 r j)))) = _
  rw [Cert.Lib.HostRows.rowBias_apply, splat_apply]
  rfl

end Cert.Lib.Layer

end
-- ==== Proof.RowLayers.lean ====
/-
  One layer of the decoder read along a row, at the ideal values, for any extents.

  A block computes a rectified layer as a matrix-unit product into a zero accumulator of the operands rounded to a
  shorter float format (the identity on the extended reals), plus the bias vector viewed as a one-row matrix and
  repeated down the rows, maximum with zero. The host computes it as a plain product, plus the bias broadcast in two
  steps, maximum with the zero word spread over the matrix. Row `i` of either is the rectified dense layer of row `i`
  of the input. The last layer has no rectifier and is followed by the logistic.
-/
import proofs.«125801_j3453153706364_1_alg».proof.Proof.Decoder
import proofs.«125801_j3453153706364_1_alg».proof.Proof.LibMatSum
import proofs.«125801_j3453153706364_1_alg».proof.Proof.LibHostRows
import proofs.«125801_j3453153706364_1_alg».proof.Proof.LibHostDense
import proofs.«125801_j3453153706364_1_alg».proof.Proof.LibLayer

noncomputable section

namespace Cert.RowLayers

open Idealize.ShloMosaic Idealize.ShloMosaic.ValueIdx Cert.Decoder

variable {a n d : ℕ}

/-- Row `i` of a block's rectified layer is the rectified dense layer of row `i` of its input. -/
theorem block_relu_row (w : DotDims.WF ⟨2, ![a, n]⟩ ⟨2, ![n, d]⟩ ⟨2, ![a, d]⟩ [1] [0] [0] [1] [] [])
    (X : FVec Ideal ⟨2, ![a, n]⟩ .f32) (W : FVec Ideal ⟨2, ![n, d]⟩ .f32) (b : FVec Ideal ⟨1, ![d]⟩ .f32)
    (hX hW : FTy.bf16.bits < FTy.f32.bits)
    (hc : (⟨1, ![d]⟩ : Shape).ShapeCasts ⟨2, ![1, d]⟩) (hb : (⟨2, ![1, d]⟩ : Shape).Broadcasts ⟨2, ![a, d]⟩) (i : Fin a) :
    (fun j : Fin d =>
      maximumf (addf (matmul (⟨[1], [0], [0], [1], [], [], w⟩ : DotDims ⟨2, ![a, n]⟩ ⟨2, ![n, d]⟩ ⟨2, ![a, d]⟩) none
            (truncf .bf16 X hX) (truncf .bf16 W hW) (constant (⟨2, ![a, d]⟩ : Shape) .f32 0x00000000#32))
          (broadcastTo ⟨2, ![a, d]⟩ (shapeCast ⟨2, ![1, d]⟩ b hc) hb))
        (broadcast ⟨2, ![a, d]⟩ (Scalar.ofBits (F := Ideal) .f32 0x00000000#32)) (ix2 i j))
      = relu (dense W b (fun k => X (ix2 i k))) := by
  funext j
  show max (matmul (⟨[1], [0], [0], [1], [], [], w⟩ : DotDims ⟨2, ![a, n]⟩ ⟨2, ![n, d]⟩ ⟨2, ![a, d]⟩) none
        (truncf .bf16 X hX) (truncf .bf16 W hW) (constant (⟨2, ![a, d]⟩ : Shape) .f32 0x00000000#32) (ix2 i j)
      + broadcastTo ⟨2, ![a, d]⟩ (shapeCast ⟨2, ![1, d]⟩ b hc) hb (ix2 i j)) (Ideal.ofBits .f32 0x00000000#32) = _
  rw [MatSum.matmul_zero_entry, Cert.Lib.Layer.rowCast_entry, Ideal.ofBits_zero_f32]
  rfl

/-- Row `i` of a block's last product (no bias yet) is the sum part of the dense layer of row `i` of its input. -/
theorem block_product_entry (w : DotDims.WF ⟨2, ![a, n]⟩ ⟨2, ![n, d]⟩ ⟨2, ![a, d]⟩ [1] [0] [0] [1] [] [])
    (X : FVec Ideal ⟨2, ![a, n]⟩ .f32) (W : FVec Ideal ⟨2, ![n, d]⟩ .f32) (hX hW : FTy.bf16.bits < FTy.f32.bits)
    (i : Fin a) (j : Fin d) :
    matmul (⟨[1], [0], [0], [1], [], [], w⟩ : DotDims ⟨2, ![a, n]⟩ ⟨2, ![n, d]⟩ ⟨2, ![a, d]⟩) none
        (truncf .bf16 X hX) (truncf .bf16 W hW) (constant (⟨2, ![a, d]⟩ : Shape) .f32 0x00000000#32) (ix2 i j)
      = ∑ k : Fin n, X (ix2 i k) * W (ix2 k j) := by
  rw [MatSum.matmul_zero_entry]
  rfl

/-- Row `r` of the host's rectified layer is the rectified dense layer of row `r` of its input. -/
theorem host_relu_row {N : ℕ} (w : DotDims.WF ⟨2, ![N, n]⟩ ⟨2, ![n, d]⟩ ⟨2, ![N, d]⟩ [1] [0] [0] [1] [] [])
    (X : FVec Ideal ⟨2, ![N, n]⟩ .f32) (W : FVec Ideal ⟨2, ![n, d]⟩ .f32) (b : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![N, d]⟩ ![0, 1])
    (h0 : (⟨0, ![]⟩ : Shape).BroadcastsInDim ⟨2, ![N, d]⟩ ![]) (r : Fin N) :
    (fun j : Fin d =>
      maximumf (addf (Host.dotGeneral (⟨[1], [0], [0], [1], [], [], w⟩ : DotDims ⟨2, ![N, n]⟩ ⟨2, ![n, d]⟩ ⟨2, ![N, d]⟩) none X W)
          (broadcastInDim ⟨2, ![N, d]⟩ ![0, 1] h2 (broadcastInDim ⟨2, ![1, d]⟩ ![1] h1 b)))
        (broadcastInDim ⟨2, ![N, d]⟩ ![] h0 (constant (F := Ideal) ⟨0, ![]⟩ .f32 0x00000000#32)) (ix2 r j))
      = relu (dense W b (fun k => X (ix2 r k))) := by
  funext j
  rw [Cert.Lib.HostDense.denseRelu_entry, Ideal.ofBits_zero_f32]
  rfl

/-- Row `r` of the host's last layer (product plus bias, no rectifier) is the dense layer of row `r` of its input. -/
theorem host_dense_entry {N : ℕ} (w : DotDims.WF ⟨2, ![N, n]⟩ ⟨2, ![n, d]⟩ ⟨2, ![N, d]⟩ [1] [0] [0] [1] [] [])
    (X : FVec Ideal ⟨2, ![N, n]⟩ .f32) (W : FVec Ideal ⟨2, ![n, d]⟩ .f32) (b : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![N, d]⟩ ![0, 1]) (r : Fin N) (j : Fin d) :
    addf (Host.dotGeneral (⟨[1], [0], [0], [1], [], [], w⟩ : DotDims ⟨2, ![N, n]⟩ ⟨2, ![n, d]⟩ ⟨2, ![N, d]⟩) none X W)
        (broadcastInDim ⟨2, ![N, d]⟩ ![0, 1] h2 (broadcastInDim ⟨2, ![1, d]⟩ ![1] h1 b)) (ix2 r j)
      = dense W b (fun k => X (ix2 r k)) j :=
  Cert.Lib.HostDense.dense_entry w X W b h1 h2 r j

end Cert.RowLayers

end
-- ==== Proof.LibOuter.lean ====
/-
  Six readings at an entry of rank-3 layout operations, for any extents and any element type: the pieces of an
  outer product of the rows of a matrix with themselves, scaled entrywise by a fixed matrix.

  Block form (a cast that inserts a unit axis, then a repeat along it):
  * `[A, B] → [A, B, 1] → [A, B, C]` reads, at `(p, a, b)`, the matrix at `(p, a)`;
  * `[A, B] → [A, 1, B] → [A, C, B]` reads, at `(p, a, b)`, the matrix at `(p, b)`;
  * `[B, C] → [1, B, C] → [A, B, C]` reads, at `(p, a, b)`, the matrix at `(a, b)`.

  Host form (a broadcast that inserts the unit axis, then a broadcast along it): the same three readings.
-/
import Idealize.ShloMosaic.Lib.ValueIdx
import Idealize.ShloMosaic.Lib.Pipeline.Value

noncomputable section

namespace Cert.Lib.Outer

open Idealize.ShloMosaic Idealize.ShloMosaic.ValueIdx

variable {α : Type} {A B C : ℕ}

/-- A coordinate below an extent is zero when that extent is one. -/
theorem val_ite {n : ℕ} (j : Fin n) : j.val = if n = 1 then 0 else j.val := by
  split
  · have := j.isLt; omega
  · rfl

/-! ## Block form -/

/-- The matrix with a trailing unit axis, repeated along it, at `(p, a, b)`: the matrix at `(p, a)`. -/
theorem castLast_entry (v : (⟨2, ![A, B]⟩ : Shape).Idx → α)
    (hc : (⟨2, ![A, B]⟩ : Shape).ShapeCasts ⟨3, ![A, B, 1]⟩) (hb : (⟨3, ![A, B, 1]⟩ : Shape).Broadcasts ⟨3, ![A, B, C]⟩)
    (p : Fin A) (a : Fin B) (b : Fin C) :
    broadcastTo ⟨3, ![A, B, C]⟩ (shapeCast ⟨3, ![A, B, 1]⟩ v hc) hb (ix3 p a b) = v (ix2 p a) := by
  refine (broadcastTo_apply _ hb (ix3 p a b) (ix3 p a (0 : Fin 1)) (fun ax => match ax with
    | ⟨0, _⟩ => val_ite p
    | ⟨1, _⟩ => val_ite a
    | ⟨2, _⟩ => by show 0 = if (1 : ℕ) = 1 then 0 else b.val; rw [if_pos rfl])).trans ?_
  exact shapeCast_apply v hc _ _ (by
    rw [Shape.rowMajor_val_two, Shape.rowMajor_val_three]
    show p.val * B + a.val = (p.val * B + a.val) * 1 + 0
    omega)

/-- The matrix with a middle unit axis, repeated along it, at `(p, a, b)`: the matrix at `(p, b)`. -/
theorem castMiddle_entry (v : (⟨2, ![A, B]⟩ : Shape).Idx → α)
    (hc : (⟨2, ![A, B]⟩ : Shape).ShapeCasts ⟨3, ![A, 1, B]⟩) (hb : (⟨3, ![A, 1, B]⟩ : Shape).Broadcasts ⟨3, ![A, C, B]⟩)
    (p : Fin A) (a : Fin C) (b : Fin B) :
    broadcastTo ⟨3, ![A, C, B]⟩ (shapeCast ⟨3, ![A, 1, B]⟩ v hc) hb (ix3 p a b) = v (ix2 p b) := by
  refine (broadcastTo_apply _ hb (ix3 p a b) (ix3 p (0 : Fin 1) b) (fun ax => match ax with
    | ⟨0, _⟩ => val_ite p
    | ⟨1, _⟩ => by show 0 = if (1 : ℕ) = 1 then 0 else a.val; rw [if_pos rfl]
    | ⟨2, _⟩ => val_ite b)).trans ?_
  exact shapeCast_apply v hc _ _ (by
    rw [Shape.rowMajor_val_two, Shape.rowMajor_val_three]
    show p.val * B + b.val = (p.val * 1 + 0) * B + b.val
    rw [Nat.mul_one, Nat.add_zero])

/-- The matrix with a leading unit axis, repeated along it, at `(p, a, b)`: the matrix at `(a, b)`. -/
theorem castFirst_entry (v : (⟨2, ![B, C]⟩ : Shape).Idx → α)
    (hc : (⟨2, ![B, C]⟩ : Shape).ShapeCasts ⟨3, ![1, B, C]⟩) (hb : (⟨3, ![1, B, C]⟩ : Shape).Broadcasts ⟨3, ![A, B, C]⟩)
    (p : Fin A) (a : Fin B) (b : Fin C) :
    broadcastTo ⟨3, ![A, B, C]⟩ (shapeCast ⟨3, ![1, B, C]⟩ v hc) hb (ix3 p a b) = v (ix2 a b) := by
  refine (broadcastTo_apply _ hb (ix3 p a b) (ix3 (0 : Fin 1) a b) (fun ax => match ax with
    | ⟨0, _⟩ => by show 0 = if (1 : ℕ) = 1 then 0 else p.val; rw [if_pos rfl]
    | ⟨1, _⟩ => val_ite a
    | ⟨2, _⟩ => val_ite b)).trans ?_
  exact shapeCast_apply v hc _ _ (by
    rw [Shape.rowMajor_val_two, Shape.rowMajor_val_three]
    show a.val * C + b.val = (0 * B + a.val) * C + b.val
    rw [Nat.zero_mul, Nat.zero_add])

/-! ## Host form -/

/-- The matrix given a trailing unit axis and broadcast along it, at `(r, a, b)`: the matrix at `(r, a)`. -/
theorem hostLast_entry (v : (⟨2, ![A, B]⟩ : Shape).Idx → α)
    (h1 : (⟨2, ![A, B]⟩ : Shape).BroadcastsInDim ⟨3, ![A, B, 1]⟩ ![0, 1])
    (h2 : (⟨3, ![A, B, 1]⟩ : Shape).BroadcastsInDim ⟨3, ![A, B, C]⟩ ![0, 1, 2]) (r : Fin A) (a : Fin B) (b : Fin C) :
    broadcastInDim ⟨3, ![A, B, C]⟩ ![0, 1, 2] h2 (broadcastInDim ⟨3, ![A, B, 1]⟩ ![0, 1] h1 v) (ix3 r a b) = v (ix2 r a) :=
  (broadcastInDim_apply _ h2 _ (ix3 r a b) (ix3 r a (0 : Fin 1)) (fun ax => match ax with
    | ⟨0, _⟩ => val_ite r
    | ⟨1, _⟩ => val_ite a
    | ⟨2, _⟩ => by show 0 = if (1 : ℕ) = 1 then 0 else b.val; rw [if_pos rfl])).trans
  (broadcastInDim_apply _ h1 v (ix3 r a (0 : Fin 1)) (ix2 r a) (fun ax => match ax with
    | ⟨0, _⟩ => val_ite r
    | ⟨1, _⟩ => val_ite a))

/-- The matrix given a middle unit axis and broadcast along it, at `(r, a, b)`: the matrix at `(r, b)`. -/
theorem hostMiddle_entry (v : (⟨2, ![A, B]⟩ : Shape).Idx → α)
    (h1 : (⟨2, ![A, B]⟩ : Shape).BroadcastsInDim ⟨3, ![A, 1, B]⟩ ![0, 2])
    (h2 : (⟨3, ![A, 1, B]⟩ : Shape).BroadcastsInDim ⟨3, ![A, C, B]⟩ ![0, 1, 2]) (r : Fin A) (a : Fin C) (b : Fin B) :
    broadcastInDim ⟨3, ![A, C, B]⟩ ![0, 1, 2] h2 (broadcastInDim ⟨3, ![A, 1, B]⟩ ![0, 2] h1 v) (ix3 r a b) = v (ix2 r b) :=
  (broadcastInDim_apply _ h2 _ (ix3 r a b) (ix3 r (0 : Fin 1) b) (fun ax => match ax with
    | ⟨0, _⟩ => val_ite r
    | ⟨1, _⟩ => by show 0 = if (1 : ℕ) = 1 then 0 else a.val; rw [if_pos rfl]
    | ⟨2, _⟩ => val_ite b)).trans
  (broadcastInDim_apply _ h1 v (ix3 r (0 : Fin 1) b) (ix2 r b) (fun ax => match ax with
    | ⟨0, _⟩ => val_ite r
    | ⟨1, _⟩ => val_ite b))

/-- The matrix given a leading unit axis and broadcast along it, at `(r, a, b)`: the matrix at `(a, b)`. -/
theorem hostFirst_entry (v : (⟨2, ![B, C]⟩ : Shape).Idx → α)
    (h1 : (⟨2, ![B, C]⟩ : Shape).BroadcastsInDim ⟨3, ![1, B, C]⟩ ![1, 2])
    (h2 : (⟨3, ![1, B, C]⟩ : Shape).BroadcastsInDim ⟨3, ![A, B, C]⟩ ![0, 1, 2]) (r : Fin A) (a : Fin B) (b : Fin C) :
    broadcastInDim ⟨3, ![A, B, C]⟩ ![0, 1, 2] h2 (broadcastInDim ⟨3, ![1, B, C]⟩ ![1, 2] h1 v) (ix3 r a b) = v (ix2 a b) :=
  (broadcastInDim_apply _ h2 _ (ix3 r a b) (ix3 (0 : Fin 1) a b) (fun ax => match ax with
    | ⟨0, _⟩ => by show 0 = if (1 : ℕ) = 1 then 0 else r.val; rw [if_pos rfl]
    | ⟨1, _⟩ => val_ite a
    | ⟨2, _⟩ => val_ite b)).trans
  (broadcastInDim_apply _ h1 v (ix3 (0 : Fin 1) a b) (ix2 a b) (fun ax => match ax with
    | ⟨0, _⟩ => val_ite a
    | ⟨1, _⟩ => val_ite b))

end Cert.Lib.Outer

end
-- ==== Proof.Payload.lean ====
/-
  What the block computes, entry by entry, at the ideal values.

  A block holds 512 rows of the input and all the weights. Its arithmetic is five pure terms of what it loads: the
  three rectified layers followed by the last product (no bias yet); the last bias repeated down the rows; the
  logistic of their sum; the comparison of that with one half, read as a number; and the outer product of the
  resulting row of zeros and ones with itself, scaled by the adjacency. Entry `(p, j)` of each is the decoder's
  function (Decoder.lean) of row `p` of the block's input.
-/
import proofs.«125801_j3453153706364_1_alg».proof.Proof.Gen.KernelIdeal.Skeleton
import proofs.«125801_j3453153706364_1_alg».proof.Proof.RowLayers
import proofs.«125801_j3453153706364_1_alg».proof.Proof.LibOuter

noncomputable section

namespace Cert.KernelIdeal.Payload

open Cert.KernelIdeal Cert.KernelIdeal.Gen Idealize.ShloMosaic Idealize.ShloMosaic.ValueIdx Cert.Decoder Cert.RowLayers

variable (x0 : Vec Ideal S512x512 .f32) (W1 : Vec Ideal S512x512 .f32) (b1 : Vec Ideal S512 .f32)
  (W2 : Vec Ideal S512x256 .f32) (b2 : Vec Ideal S256 .f32) (W3 : Vec Ideal S256x128 .f32) (b3 : Vec Ideal S128 .f32)
  (W4 : Vec Ideal S128x20 .f32) (b4 : Vec Ideal S20 .f32) (adj : Vec Ideal S20x20 .f32)

/-- The weights a block has loaded, as the decoder's record. -/
abbrev loaded : Weights := ⟨W1, b1, W2, b2, W3, b3, W4, b4, adj⟩

/-- The last product at `(p, j)`: the sum part of the fourth layer applied to the hidden row of row `p`. -/
theorem product_entry (p : Fin 512) (j : Fin 20) :
    k0_pay4 (F := Ideal) x0 W1 b1 W2 b2 W3 b3 W4 (ix2 p j)
      = ∑ k : Fin 128, hidden (loaded W1 b1 W2 b2 W3 b3 W4 b4 adj) (fun k => x0 (ix2 p k)) k * W4 (ix2 k j) := by
  unfold k0_pay4
  refine (block_product_entry (a := 512) (n := 128) (d := 20) _ _ W4 _ _ p j).trans ?_
  refine Finset.sum_congr rfl fun k _ => congrArg (· * W4 (ix2 k j)) ?_
  refine (congrFun (block_relu_row (a := 512) (n := 256) (d := 128) _ _ W3 b3 _ _ _ _ p) k).trans ?_
  refine congrFun (congrArg (fun r => relu (dense W3 b3 r)) ?_) k
  refine (block_relu_row (a := 512) (n := 512) (d := 256) _ _ W2 b2 _ _ _ _ p).trans ?_
  refine congrArg (fun r => relu (dense W2 b2 r)) ?_
  exact block_relu_row (a := 512) (n := 512) (d := 512) _ x0 W1 b1 _ _ _ _ p

/-- The last bias repeated down the rows, at `(p, j)`: the bias at `j`. -/
theorem bias_entry (p : Fin 512) (j : Fin 20) : k0_pay5 (F := Ideal) b4 (ix2 p j) = b4 (ix1 j) := by
  unfold k0_pay5
  exact Cert.Lib.Layer.rowCast_entry (a := 512) (n := 20) b4 _ _ p j

/-- The probabilities at `(p, j)`. -/
theorem prob_entry (p : Fin 512) (j : Fin 20) :
    k0_pay1 (F := Ideal) (k0_pay4 x0 W1 b1 W2 b2 W3 b3 W4) (k0_pay5 b4) (ix2 p j)
      = prob (loaded W1 b1 W2 b2 W3 b3 W4 b4 adj) (fun k => x0 (ix2 p k)) j := by
  show Ideal.logistic (k0_pay4 (F := Ideal) x0 W1 b1 W2 b2 W3 b3 W4 (ix2 p j) + k0_pay5 (F := Ideal) b4 (ix2 p j)) = _
  rw [product_entry x0 W1 b1 W2 b2 W3 b3 W4 b4 adj, bias_entry]
  rfl

/-- The faces at `(p, j)`. -/
theorem face_entry (p : Fin 512) (j : Fin 20) :
    k0_pay2 (F := Ideal) (k0_pay4 x0 W1 b1 W2 b2 W3 b3 W4) (k0_pay5 b4) (ix2 p j)
      = face (loaded W1 b1 W2 b2 W3 b3 W4 b4 adj) (fun k => x0 (ix2 p k)) j := by
  unfold k0_pay2
  refine (aboveHalf_widened _).trans ?_
  exact congrArg aboveHalf (prob_entry x0 W1 b1 W2 b2 W3 b3 W4 b4 adj p j)

/-- The adjacency entries at `(p, a, b)`. -/
theorem pair_entry (p : Fin 512) (a b : Fin 20) :
    k0_pay3 (F := Ideal) (k0_pay4 x0 W1 b1 W2 b2 W3 b3 W4) (k0_pay5 b4) adj (ix3 p a b)
      = pair (loaded W1 b1 W2 b2 W3 b3 W4 b4 adj) (fun k => x0 (ix2 p k)) a b := by
  unfold k0_pay3
  show broadcastTo S512x20x20 (shapeCast S512x20x1 (k0_pay2 (F := Ideal) (k0_pay4 x0 W1 b1 W2 b2 W3 b3 W4) (k0_pay5 b4))
          shapeCasts_S512x20_S512x20x1) broadcasts_S512x20x1_S512x20x20 (ix3 p a b)
        * broadcastTo S512x20x20 (shapeCast S512x1x20 (k0_pay2 (F := Ideal) (k0_pay4 x0 W1 b1 W2 b2 W3 b3 W4) (k0_pay5 b4))
          shapeCasts_S512x20_S512x1x20) broadcasts_S512x1x20_S512x20x20 (ix3 p a b)
        * broadcastTo S512x20x20 (shapeCast S1x20x20 adj shapeCasts_S20x20_S1x20x20) broadcasts_S1x20x20_S512x20x20 (ix3 p a b)
      = _
  rw [Cert.Lib.Outer.castLast_entry (A := 512) (B := 20) (C := 20),
    Cert.Lib.Outer.castMiddle_entry (A := 512) (B := 20) (C := 20),
    Cert.Lib.Outer.castFirst_entry (A := 512) (B := 20) (C := 20),
    face_entry x0 W1 b1 W2 b2 W3 b3 W4 b4 adj, face_entry x0 W1 b1 W2 b2 W3 b3 W4 b4 adj]
  rfl

end Cert.KernelIdeal.Payload

end
-- ==== Proof.Blocks.lean ====
/-
  From blocks to arrays, at the ideal values.

  The grid has 128 points. At point `t` the block of the input is rows `512·t … 512·t + 511`; the weights, biases
  and adjacency are whole at every point; and each of the three outputs' blocks is rows `512·t … 512·t + 511` of
  its array. Since an output row is the decoder's function of its own input row (Payload.lean), what point `t` writes
  back is block `t` of the decoder's whole-array function; the 128 blocks cover all 65536 rows, so each output array
  ends holding that function of the argument arrays. The line after the region writes the zero word.
-/
import proofs.«125801_j3453153706364_1_alg».proof.Proof.Gen.KernelIdeal.Frame
import proofs.«125801_j3453153706364_1_alg».proof.Proof.Payload
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.Decoder
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps, decided over the 128 points -/

/-- The input's block and the three outputs' blocks move down one block of rows per point. -/
theorem moving : ∀ t : Fin cfg0.N,
    win0_0.index t (0 : Fin 2) = t.val ∧ win0_0.index t (1 : Fin 2) = 0
    ∧ win0_10.index t (0 : Fin 3) = t.val ∧ win0_10.index t (1 : Fin 3) = 0 ∧ win0_10.index t (2 : Fin 3) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The weights, biases and adjacency stay at block zero. -/
theorem resident : ∀ t : Fin cfg0.N,
    win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0 :=
  (by decide +kernel : ∀ t : Fin grid0.N, _)

/-- Row `p` of block `t` is row `512·t + p` of the array. -/
def rowOf (t : Fin cfg0.N) (p : Fin 512) : Fin 65536 :=
  ⟨t.val * 512 + p.val, by have ht : t.val < 128 := N_0 ▸ t.isLt; have := p.isLt; omega⟩

/-! ## Where a block's entries sit in its array -/

theorem emb0 (t : Fin cfg0.N) (p : Fin 512) (k : Fin 512) :
    ((cfg0.win 0).blk t).view.emb (ix2 p k) = ix2 (rowOf t p) k := by
  obtain ⟨e0, e1, -⟩ := moving t
  funext ax; apply Fin.ext
  match ax with
  | ⟨0, _⟩ => show win0_0.index t (0 : Fin 2) * 512 + 1 * p.val = t.val * 512 + p.val; omega
  | ⟨1, _⟩ => show win0_0.index t (1 : Fin 2) * 512 + 1 * k.val = k.val; omega

theorem emb10 (t : Fin cfg0.N) (p : Fin 512) (a b : Fin 20) :
    ((cfg0.win 10).blk t).view.emb (ix3 p a b) = ix3 (rowOf t p) a b := by
  obtain ⟨-, -, e0, e1, e2, -⟩ := moving t
  funext ax; apply Fin.ext
  match ax with
  | ⟨0, _⟩ => show win0_10.index t (0 : Fin 3) * 512 + 1 * p.val = t.val * 512 + p.val; omega
  | ⟨1, _⟩ => show win0_10.index t (1 : Fin 3) * 20 + 1 * a.val = a.val; omega
  | ⟨2, _⟩ => show win0_10.index t (2 : Fin 3) * 20 + 1 * b.val = b.val; omega

theorem emb11 (t : Fin cfg0.N) (p : Fin 512) (j : Fin 20) :
    ((cfg0.win 11).blk t).view.emb (ix2 p j) = ix2 (rowOf t p) j := by
  obtain ⟨-, -, -, -, -, e0, e1, -⟩ := moving t
  funext ax; apply Fin.ext
  match ax with
  | ⟨0, _⟩ => show win0_11.index t (0 : Fin 2) * 512 + 1 * p.val = t.val * 512 + p.val; omega
  | ⟨1, _⟩ => show win0_11.index t (1 : Fin 2) * 20 + 1 * j.val = j.val; omega

theorem emb12 (t : Fin cfg0.N) (p : Fin 512) (j : Fin 20) :
    ((cfg0.win 12).blk t).view.emb (ix2 p j) = ix2 (rowOf t p) j := by
  obtain ⟨-, -, -, -, -, -, -, e0, e1⟩ := moving t
  funext ax; apply Fin.ext
  match ax with
  | ⟨0, _⟩ => show win0_12.index t (0 : Fin 2) * 512 + 1 * p.val = t.val * 512 + p.val; omega
  | ⟨1, _⟩ => show win0_12.index t (1 : Fin 2) * 20 + 1 * j.val = j.val; omega

/-! ## The resident operands' blocks are their whole arrays -/

theorem whole1 (c : Dev nD) (t : Fin cfg0.N) : iblk m c 1 t = V m c main_arg1 := by
  obtain ⟨e0, e1, -⟩ := resident t
  funext y
  show V m c main_arg1 (((cfg0.win 1).blk t).view.emb y) = V m c main_arg1 y
  refine congrArg (V m c main_arg1) (funext fun ax => Fin.ext ?_)
  match ax with
  | ⟨0, _⟩ => show win0_1.index t (0 : Fin 2) * 512 + 1 * (y 0).val = (y 0).val; omega
  | ⟨1, _⟩ => show win0_1.index t (1 : Fin 2) * 512 + 1 * (y 1).val = (y 1).val; omega

theorem whole2 (c : Dev nD) (t : Fin cfg0.N) : iblk m c 2 t = V m c main_arg2 := by
  obtain ⟨-, -, e0, -⟩ := resident t
  funext y
  show V m c main_arg2 (((cfg0.win 2).blk t).view.emb y) = V m c main_arg2 y
  refine congrArg (V m c main_arg2) (funext fun ax => Fin.ext ?_)
  match ax with
  | ⟨0, _⟩ => show win0_2.index t (0 : Fin 1) * 512 + 1 * (y 0).val = (y 0).val; omega

theorem whole3 (c : Dev nD) (t : Fin cfg0.N) : iblk m c 3 t = V m c main_arg3 := by
  obtain ⟨-, -, -, e0, e1, -⟩ := resident t
  funext y
  show V m c main_arg3 (((cfg0.win 3).blk t).view.emb y) = V m c main_arg3 y
  refine congrArg (V m c main_arg3) (funext fun ax => Fin.ext ?_)
  match ax with
  | ⟨0, _⟩ => show win0_3.index t (0 : Fin 2) * 512 + 1 * (y 0).val = (y 0).val; omega
  | ⟨1, _⟩ => show win0_3.index t (1 : Fin 2) * 256 + 1 * (y 1).val = (y 1).val; omega

theorem whole4 (c : Dev nD) (t : Fin cfg0.N) : iblk m c 4 t = V m c main_arg4 := by
  obtain ⟨-, -, -, -, -, e0, -⟩ := resident t
  funext y
  show V m c main_arg4 (((cfg0.win 4).blk t).view.emb y) = V m c main_arg4 y
  refine congrArg (V m c main_arg4) (funext fun ax => Fin.ext ?_)
  match ax with
  | ⟨0, _⟩ => show win0_4.index t (0 : Fin 1) * 256 + 1 * (y 0).val = (y 0).val; omega

theorem whole5 (c : Dev nD) (t : Fin cfg0.N) : iblk m c 5 t = V m c main_arg5 := by
  obtain ⟨-, -, -, -, -, -, e0, e1, -⟩ := resident t
  funext y
  show V m c main_arg5 (((cfg0.win 5).blk t).view.emb y) = V m c main_arg5 y
  refine congrArg (V m c main_arg5) (funext fun ax => Fin.ext ?_)
  match ax with
  | ⟨0, _⟩ => show win0_5.index t (0 : Fin 2) * 256 + 1 * (y 0).val = (y 0).val; omega
  | ⟨1, _⟩ => show win0_5.index t (1 : Fin 2) * 128 + 1 * (y 1).val = (y 1).val; omega

theorem whole6 (c : Dev nD) (t : Fin cfg0.N) : iblk m c 6 t = V m c main_arg6 := by
  obtain ⟨-, -, -, -, -, -, -, -, e0, -⟩ := resident t
  funext y
  show V m c main_arg6 (((cfg0.win 6).blk t).view.emb y) = V m c main_arg6 y
  refine congrArg (V m c main_arg6) (funext fun ax => Fin.ext ?_)
  match ax with
  | ⟨0, _⟩ => show win0_6.index t (0 : Fin 1) * 128 + 1 * (y 0).val = (y 0).val; omega

theorem whole7 (c : Dev nD) (t : Fin cfg0.N) : iblk m c 7 t = V m c main_arg7 := by
  obtain ⟨-, -, -, -, -, -, -, -, -, e0, e1, -⟩ := resident t
  funext y
  show V m c main_arg7 (((cfg0.win 7).blk t).view.emb y) = V m c main_arg7 y
  refine congrArg (V m c main_arg7) (funext fun ax => Fin.ext ?_)
  match ax with
  | ⟨0, _⟩ => show win0_7.index t (0 : Fin 2) * 128 + 1 * (y 0).val = (y 0).val; omega
  | ⟨1, _⟩ => show win0_7.index t (1 : Fin 2) * 20 + 1 * (y 1).val = (y 1).val; omega

theorem whole8 (c : Dev nD) (t : Fin cfg0.N) : iblk m c 8 t = V m c main_arg8 := by
  obtain ⟨-, -, -, -, -, -, -, -, -, -, -, e0, -⟩ := resident t
  funext y
  show V m c main_arg8 (((cfg0.win 8).blk t).view.emb y) = V m c main_arg8 y
  refine congrArg (V m c main_arg8) (funext fun ax => Fin.ext ?_)
  match ax with
  | ⟨0, _⟩ => show win0_8.index t (0 : Fin 1) * 20 + 1 * (y 0).val = (y 0).val; omega

theorem whole9 (c : Dev nD) (t : Fin cfg0.N) : iblk m c 9 t = V m c main_arg9 := by
  obtain ⟨-, -, -, -, -, -, -, -, -, -, -, -, e0, e1⟩ := resident t
  funext y
  show V m c main_arg9 (((cfg0.win 9).blk t).view.emb y) = V m c main_arg9 y
  refine congrArg (V m c main_arg9) (funext fun ax => Fin.ext ?_)
  match ax with
  | ⟨0, _⟩ => show win0_9.index t (0 : Fin 2) * 20 + 1 * (y 0).val = (y 0).val; omega
  | ⟨1, _⟩ => show win0_9.index t (1 : Fin 2) * 20 + 1 * (y 1).val = (y 1).val; omega

/-- The argument arrays after the input, as the decoder's record. -/
abbrev args (c : Dev nD) : Weights :=
  ⟨V m c main_arg1, V m c main_arg2, V m c main_arg3, V m c main_arg4, V m c main_arg5, V m c main_arg6, V m c main_arg7,
    V m c main_arg8, V m c main_arg9⟩

/-- The weights a point has loaded are the argument arrays. -/
theorem loaded_eq (c : Dev nD) (t : Fin cfg0.N) :
    Payload.loaded (iblk m c 1 t) (iblk m c 2 t) (iblk m c 3 t) (iblk m c 4 t) (iblk m c 5 t) (iblk m c 6 t) (iblk m c 7 t)
      (iblk m c 8 t) (iblk m c 9 t) = args m c := by
  rw [whole1, whole2, whole3, whole4, whole5, whole6, whole7, whole8, whole9]

/-- Row `p` of the input's block at point `t` is row `512·t + p` of the input. -/
theorem row_eq (c : Dev nD) (t : Fin cfg0.N) (p : Fin 512) :
    (fun k : Fin 512 => iblk m c 0 t (ix2 p k)) = row (V m c main_arg0) (rowOf t p) := by
  funext k
  show V m c main_arg0 (((cfg0.win 0).blk t).view.emb (ix2 p k)) = V m c main_arg0 (ix2 (rowOf t p) k)
  rw [emb0]

/-! ## What each point writes back -/

/-- Point `t` writes back block `t` of the probabilities of every row. -/
theorem flushed12_eq (c : Dev nD) (t : Fin cfg0.N) :
    (dats m 0 c).flushed 12 t
      = ((cfg0.win 12).blk t).view.read (Elt Ideal) (probsOf (args m c) (V m c main_arg0)) := by
  show (cfg0.win 12).cut (grid0.coords t) ((dats m 0 c).after 12 t) = _
  rw [after0_12]
  unfold out0_12
  rw [View.canon_unit_zero hz2]
  simp only [View.ld_unit_zero (S := S512x512) hz2, View.ld_unit_zero (S := S512) hz1, View.ld_unit_zero (S := S512x256) hz2,
    View.ld_unit_zero (S := S256) hz1, View.ld_unit_zero (S := S256x128) hz2, View.ld_unit_zero (S := S128) hz1,
    View.ld_unit_zero (S := S128x20) hz2, View.ld_unit_zero (S := S20) hz1]
  funext y
  obtain ⟨p, j, rfl⟩ : ∃ (p : Fin 512) (j : Fin 20), y = ix2 p j := ⟨y 0, y 1, eq_ix2 y⟩
  show k0_pay1 (F := Ideal) (k0_pay4 (iblk m c 0 t) (iblk m c 1 t) (iblk m c 2 t) (iblk m c 3 t) (iblk m c 4 t)
        (iblk m c 5 t) (iblk m c 6 t) (iblk m c 7 t)) (k0_pay5 (iblk m c 8 t)) (ix2 p j)
      = probsOf (args m c) (V m c main_arg0) (((cfg0.win 12).blk t).view.emb (ix2 p j))
  rw [emb12, probsOf_ix, Payload.prob_entry _ _ _ _ _ _ _ _ _ (iblk m c 9 t) p j, loaded_eq, row_eq]

/-- Point `t` writes back block `t` of the faces of every row. -/
theorem flushed11_eq (c : Dev nD) (t : Fin cfg0.N) :
    (dats m 0 c).flushed 11 t
      = ((cfg0.win 11).blk t).view.read (Elt Ideal) (facesOf (args m c) (V m c main_arg0)) := by
  show (cfg0.win 11).cut (grid0.coords t) ((dats m 0 c).after 11 t) = _
  rw [after0_11]
  unfold out0_11
  rw [View.canon_unit_zero hz2]
  simp only [View.ld_unit_zero (S := S512x512) hz2, View.ld_unit_zero (S := S512) hz1, View.ld_unit_zero (S := S512x256) hz2,
    View.ld_unit_zero (S := S256) hz1, View.ld_unit_zero (S := S256x128) hz2, View.ld_unit_zero (S := S128) hz1,
    View.ld_unit_zero (S := S128x20) hz2, View.ld_unit_zero (S := S20) hz1]
  funext y
  obtain ⟨p, j, rfl⟩ : ∃ (p : Fin 512) (j : Fin 20), y = ix2 p j := ⟨y 0, y 1, eq_ix2 y⟩
  show k0_pay2 (F := Ideal) (k0_pay4 (iblk m c 0 t) (iblk m c 1 t) (iblk m c 2 t) (iblk m c 3 t) (iblk m c 4 t)
        (iblk m c 5 t) (iblk m c 6 t) (iblk m c 7 t)) (k0_pay5 (iblk m c 8 t)) (ix2 p j)
      = facesOf (args m c) (V m c main_arg0) (((cfg0.win 11).blk t).view.emb (ix2 p j))
  rw [emb11, facesOf_ix, Payload.face_entry _ _ _ _ _ _ _ _ _ (iblk m c 9 t) p j, loaded_eq, row_eq]

/-- Point `t` writes back block `t` of the adjacency matrices of every row. -/
theorem flushed10_eq (c : Dev nD) (t : Fin cfg0.N) :
    (dats m 0 c).flushed 10 t
      = ((cfg0.win 10).blk t).view.read (Elt Ideal) (pairsOf (args m c) (V m c main_arg0)) := by
  show (cfg0.win 10).cut (grid0.coords t) ((dats m 0 c).after 10 t) = _
  rw [after0_10]
  unfold out0_10
  rw [View.canon_unit_zero hz3]
  simp only [View.ld_unit_zero (S := S512x512) hz2, View.ld_unit_zero (S := S512) hz1, View.ld_unit_zero (S := S512x256) hz2,
    View.ld_unit_zero (S := S256) hz1, View.ld_unit_zero (S := S256x128) hz2, View.ld_unit_zero (S := S128) hz1,
    View.ld_unit_zero (S := S128x20) hz2, View.ld_unit_zero (S := S20) hz1, View.ld_unit_zero (S := S20x20) hz2]
  funext y
  obtain ⟨p, a, b, rfl⟩ : ∃ (p : Fin 512) (a b : Fin 20), y = ix3 p a b := ⟨y 0, y 1, y 2, eq_ix3 y⟩
  show k0_pay3 (F := Ideal) (k0_pay4 (iblk m c 0 t) (iblk m c 1 t) (iblk m c 2 t) (iblk m c 3 t) (iblk m c 4 t)
        (iblk m c 5 t) (iblk m c 6 t) (iblk m c 7 t)) (k0_pay5 (iblk m c 8 t)) (iblk m c 9 t) (ix3 p a b)
      = pairsOf (args m c) (V m c main_arg0) (((cfg0.win 10).blk t).view.emb (ix3 p a b))
  rw [emb10, pairsOf_ix, Payload.pair_entry, loaded_eq, row_eq]

/-! ## The blocks cover the arrays -/

theorem mem_blk10 (t : Fin cfg0.N) (i : S65536x20x20.Idx) :
    i ∈ ((cfg0.win 10).blk t).view.set ↔ ∀ a : Fin 3, win0_10.index t a * S512x20x20.size a ≤ (i a).val
      ∧ (i a).val < win0_10.index t a * S512x20x20.size a + S512x20x20.size a := by
  show i ∈ ((View.whole main_v0_0).slice (win0_10.rect t)).set ↔ _
  rw [View.set_slice_whole, Rect.mem_set_unit]
  exact Iff.rfl

theorem mem_blk11 (t : Fin cfg0.N) (i : S65536x20.Idx) :
    i ∈ ((cfg0.win 11).blk t).view.set ↔ ∀ a : Fin 2, win0_11.index t a * S512x20.size a ≤ (i a).val
      ∧ (i a).val < win0_11.index t a * S512x20.size a + S512x20.size a := by
  show i ∈ ((View.whole main_v0_1).slice (win0_11.rect t)).set ↔ _
  rw [View.set_slice_whole, Rect.mem_set_unit]
  exact Iff.rfl

theorem mem_blk12 (t : Fin cfg0.N) (i : S65536x20.Idx) :
    i ∈ ((cfg0.win 12).blk t).view.set ↔ ∀ a : Fin 2, win0_12.index t a * S512x20.size a ≤ (i a).val
      ∧ (i a).val < win0_12.index t a * S512x20.size a + S512x20.size a := by
  show i ∈ ((View.whole main_v0_2).slice (win0_12.rect t)).set ↔ _
  rw [View.set_slice_whole, Rect.mem_set_unit]
  exact Iff.rfl

/-- The point whose block holds row `r`: `r / 512`. -/
def pointOf (r : ℕ) (hr : r < 65536) : Fin cfg0.N :=
  ⟨r / 512, by show r / 512 < grid0.N; rw [N_0]; omega⟩

theorem cover10 (i : S65536x20x20.Idx) :
    ∃ t : Fin cfg0.N, (cfg0.win 10).flush t = true ∧ i ∈ ((cfg0.win 10).blk t).view.set := by
  have hi0 : (i 0).val < 65536 := (i 0).isLt
  have hi1 : (i 1).val < 20 := (i 1).isLt
  have hi2 : (i 2).val < 20 := (i 2).isLt
  obtain ⟨-, -, e0, e1, e2, -⟩ := moving (pointOf (i 0).val hi0)
  have ht : (pointOf (i 0).val hi0).val = (i 0).val / 512 := rfl
  refine ⟨pointOf (i 0).val hi0, flush0_10 _, ?_⟩
  rw [mem_blk10]
  intro a
  match a with
  | ⟨0, _⟩ =>
    show win0_10.index (pointOf (i 0).val hi0) (0 : Fin 3) * 512 ≤ (i 0).val
      ∧ (i 0).val < win0_10.index (pointOf (i 0).val hi0) (0 : Fin 3) * 512 + 512
    omega
  | ⟨1, _⟩ =>
    show win0_10.index (pointOf (i 0).val hi0) (1 : Fin 3) * 20 ≤ (i 1).val
      ∧ (i 1).val < win0_10.index (pointOf (i 0).val hi0) (1 : Fin 3) * 20 + 20
    omega
  | ⟨2, _⟩ =>
    show win0_10.index (pointOf (i 0).val hi0) (2 : Fin 3) * 20 ≤ (i 2).val
      ∧ (i 2).val < win0_10.index (pointOf (i 0).val hi0) (2 : Fin 3) * 20 + 20
    omega

theorem cover11 (i : S65536x20.Idx) :
    ∃ t : Fin cfg0.N, (cfg0.win 11).flush t = true ∧ i ∈ ((cfg0.win 11).blk t).view.set := by
  have hi0 : (i 0).val < 65536 := (i 0).isLt
  have hi1 : (i 1).val < 20 := (i 1).isLt
  obtain ⟨-, -, -, -, -, e0, e1, -⟩ := moving (pointOf (i 0).val hi0)
  have ht : (pointOf (i 0).val hi0).val = (i 0).val / 512 := rfl
  refine ⟨pointOf (i 0).val hi0, flush0_11 _, ?_⟩
  rw [mem_blk11]
  intro a
  match a with
  | ⟨0, _⟩ =>
    show win0_11.index (pointOf (i 0).val hi0) (0 : Fin 2) * 512 ≤ (i 0).val
      ∧ (i 0).val < win0_11.index (pointOf (i 0).val hi0) (0 : Fin 2) * 512 + 512
    omega
  | ⟨1, _⟩ =>
    show win0_11.index (pointOf (i 0).val hi0) (1 : Fin 2) * 20 ≤ (i 1).val
      ∧ (i 1).val < win0_11.index (pointOf (i 0).val hi0) (1 : Fin 2) * 20 + 20
    omega

theorem cover12 (i : S65536x20.Idx) :
    ∃ t : Fin cfg0.N, (cfg0.win 12).flush t = true ∧ i ∈ ((cfg0.win 12).blk t).view.set := by
  have hi0 : (i 0).val < 65536 := (i 0).isLt
  have hi1 : (i 1).val < 20 := (i 1).isLt
  obtain ⟨-, -, -, -, -, -, -, e0, e1⟩ := moving (pointOf (i 0).val hi0)
  have ht : (pointOf (i 0).val hi0).val = (i 0).val / 512 := rfl
  refine ⟨pointOf (i 0).val hi0, flush0_12 _, ?_⟩
  rw [mem_blk12]
  intro a
  match a with
  | ⟨0, _⟩ =>
    show win0_12.index (pointOf (i 0).val hi0) (0 : Fin 2) * 512 ≤ (i 0).val
      ∧ (i 0).val < win0_12.index (pointOf (i 0).val hi0) (0 : Fin 2) * 512 + 512
    omega
  | ⟨1, _⟩ =>
    show win0_12.index (pointOf (i 0).val hi0) (1 : Fin 2) * 20 ≤ (i 1).val
      ∧ (i 1).val < win0_12.index (pointOf (i 0).val hi0) (1 : Fin 2) * 20 + 20
    omega

/-! ## The arrays after the run -/

theorem final10 (c : Dev nD) : (dats m 0 c).arrAt 10 cfg0.N = pairsOf (args m c) (V m c main_arg0) :=
  (dats m 0 c).arrAt_eq_of_cover 10 _ (fun t _ => flushed10_eq m c t) cover10

theorem final11 (c : Dev nD) : (dats m 0 c).arrAt 11 cfg0.N = facesOf (args m c) (V m c main_arg0) :=
  (dats m 0 c).arrAt_eq_of_cover 11 _ (fun t _ => flushed11_eq m c t) cover11

theorem final12 (c : Dev nD) : (dats m 0 c).arrAt 12 cfg0.N = probsOf (args m c) (V m c main_arg0) :=
  (dats m 0 c).arrAt_eq_of_cover 12 _ (fun t _ => flushed12_eq m c t) cover12

/-- The line after the region writes the zero word into the scalar result. -/
theorem tail_zero (c : Dev nD) :
    Pipeline.afterTail₀ cfgs (dats m) 0 (V0 m) [hostOps1] c main_cst = constant (F := Ideal) S_ .f32 0x00000000#32 := by
  unfold Pipeline.afterTail₀
  show StableHlo.after hostOps1 _ (Proc.devRef .tc main_cst) = _
  after_results

/-! ## The run, read -/

/-- Every weakly fair execution terminates with the three output arrays at the decoder's functions of the argument
    arrays, the scalar result at the zero word, and the arguments unchanged. -/
theorem run : θ_run defs (onTc (τ := τ) (main (F := Ideal))) ⟨m, fun _ => 0, ρ⟩ fun r => ∀ c : Dev nD,
      r.2.mem ((c : Thread nD τ).loc main_v0_0) = pairsOf (args m c) (V m c main_arg0)
      ∧ r.2.mem ((c : Thread nD τ).loc main_v0_1) = facesOf (args m c) (V m c main_arg0)
      ∧ r.2.mem ((c : Thread nD τ).loc main_v0_2) = probsOf (args m c) (V m c main_arg0)
      ∧ r.2.mem ((c : Thread nD τ).loc main_cst) = constant (F := Ideal) S_ .f32 0x00000000#32
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 10).trans (final10 m c), ((h c).1 11).trans (final11 m c),
      ((h c).1 12).trans (final12 m c),
      ((h c).2 main_cst (Pipeline.mem_restRefs_of main_cst rfl (by decide))).trans (tail_zero m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.KernelIdeal.Blocks

end
-- ==== Proof.RefRead.lean ====
/-
  What the reference computes, entry by entry, at the ideal values.

  The reference runs the same decoder over all 65536 rows at once: three times a plain product, a bias broadcast
  down the rows and the maximum with the zero word spread over the matrix; a fourth product and bias; the logistic
  spelt as negate, exponential, add one, divide into one; the comparison with one half read as a number; and the
  outer product of each row of zeros and ones with itself, scaled by the adjacency. Its three array results are the
  decoder's functions (Decoder.lean) of the rows of its input.
-/
import proofs.«125801_j3453153706364_1_alg».proof.Proof.Gen.ReferenceIdeal.Read
import proofs.«125801_j3453153706364_1_alg».proof.Proof.RowLayers
import proofs.«125801_j3453153706364_1_alg».proof.Proof.LibOuter

noncomputable section

namespace Cert.ReferenceIdeal.RefValue

open Cert.ReferenceIdeal Cert.ReferenceIdeal.Gen Cert.ReferenceIdeal.Read Idealize.ShloMosaic Idealize.ShloMosaic.ValueIdx
open Cert.Decoder Cert.RowLayers

variable (z : (⟨S65536x512, .f32⟩ : BufTy).Contents (Elt Ideal)) (W1 : (⟨S512x512, .f32⟩ : BufTy).Contents (Elt Ideal))
  (b1 : (⟨S512, .f32⟩ : BufTy).Contents (Elt Ideal)) (W2 : (⟨S512x256, .f32⟩ : BufTy).Contents (Elt Ideal))
  (b2 : (⟨S256, .f32⟩ : BufTy).Contents (Elt Ideal)) (W3 : (⟨S256x128, .f32⟩ : BufTy).Contents (Elt Ideal))
  (b3 : (⟨S128, .f32⟩ : BufTy).Contents (Elt Ideal)) (W4 : (⟨S128x20, .f32⟩ : BufTy).Contents (Elt Ideal))
  (b4 : (⟨S20, .f32⟩ : BufTy).Contents (Elt Ideal)) (adj : (⟨S20x20, .f32⟩ : BufTy).Contents (Elt Ideal))

/-- The reference's arguments after the input, as the decoder's record. -/
abbrev given : Weights := ⟨W1, b1, W2, b2, W3, b3, W4, b4, adj⟩

/-- Row `r` after the three rectified layers. -/
theorem hidden_row (r : Fin 65536) :
    (fun k : Fin 128 => val_main_v14 (F := Ideal) z W1 b1 W2 b2 W3 b3 (ix2 r k))
      = hidden (given W1 b1 W2 b2 W3 b3 W4 b4 adj) (row z r) := by
  unfold val_main_v14 val_main_v13 val_main_v10 val_main_v12 val_main_v11 val_main_call2_v0 val_main_call2_cst
  refine (host_relu_row (N := 65536) (n := 256) (d := 128) _ _ W3 b3 _ _ _ r).trans ?_
  refine congrArg (fun x => relu (dense W3 b3 x)) ?_
  unfold val_main_v9 val_main_v8 val_main_v5 val_main_v7 val_main_v6 val_main_call1_v0 val_main_call1_cst
  refine (host_relu_row (N := 65536) (n := 512) (d := 256) _ _ W2 b2 _ _ _ r).trans ?_
  refine congrArg (fun x => relu (dense W2 b2 x)) ?_
  unfold val_main_v4 val_main_v3 val_main_v0 val_main_v2 val_main_v1 val_main_call0_v0 val_main_call0_cst
  exact host_relu_row (N := 65536) (n := 512) (d := 512) _ z W1 b1 _ _ _ r

/-- The logits at `(r, j)`. -/
theorem logit_entry (r : Fin 65536) (j : Fin 20) :
    val_main_v18 (F := Ideal) z W1 b1 W2 b2 W3 b3 W4 b4 (ix2 r j) = logit (given W1 b1 W2 b2 W3 b3 W4 b4 adj) (row z r) j := by
  unfold val_main_v18 val_main_v15 val_main_v17 val_main_v16
  refine (host_dense_entry (N := 65536) (n := 128) (d := 20) _ _ W4 b4 _ _ r j).trans ?_
  exact congrFun (congrArg (dense W4 b4) (hidden_row z W1 b1 W2 b2 W3 b3 W4 b4 adj r)) j

/-- The probabilities at `(r, j)`. -/
theorem prob_entry (r : Fin 65536) (j : Fin 20) :
    val_main_v24 (F := Ideal) z W1 b1 W2 b2 W3 b3 W4 b4 (ix2 r j) = prob (given W1 b1 W2 b2 W3 b3 W4 b4 adj) (row z r) j := by
  unfold val_main_v24 val_main_v23 val_main_cst_0 val_main_v22 val_main_v21 val_main_cst val_main_v20 val_main_v19
  show Ideal.div (broadcastInDim S65536x20 ![] bcast_S_S65536x20 (constant (F := Ideal) S_ .f32 0x3F800000#32) (ix2 r j))
      (broadcastInDim S65536x20 ![] bcast_S_S65536x20 (constant (F := Ideal) S_ .f32 0x3F800000#32) (ix2 r j)
        + Ideal.exp (-(val_main_v18 (F := Ideal) z W1 b1 W2 b2 W3 b3 W4 b4 (ix2 r j)))) = _
  rw [Cert.Lib.Layer.splat_apply, logistic_of_words, logit_entry z W1 b1 W2 b2 W3 b3 W4 b4 adj]
  rfl

/-- The faces at `(r, j)`. -/
theorem face_entry (r : Fin 65536) (j : Fin 20) :
    val_main_v27 (F := Ideal) z W1 b1 W2 b2 W3 b3 W4 b4 (ix2 r j) = face (given W1 b1 W2 b2 W3 b3 W4 b4 adj) (row z r) j := by
  unfold val_main_v27 val_main_v26 val_main_v25 val_main_cst_1
  show FloatOps.uitofp (F := Ideal) .f32 (FloatOps.cmpf (F := Ideal) (φ := .f32) .ogt
      (val_main_v24 (F := Ideal) z W1 b1 W2 b2 W3 b3 W4 b4 (ix2 r j))
      (broadcastInDim S65536x20 ![] bcast_S_S65536x20 (constant (F := Ideal) S_ .f32 0x3F000000#32) (ix2 r j))) = _
  rw [Cert.Lib.Layer.splat_apply, prob_entry z W1 b1 W2 b2 W3 b3 W4 b4 adj]
  rfl

/-- The adjacency entries at `(r, a, b)`. -/
theorem pair_entry (r : Fin 65536) (a b : Fin 20) :
    val_main_v35 (F := Ideal) z W1 b1 W2 b2 W3 b3 W4 b4 adj (ix3 r a b)
      = pair (given W1 b1 W2 b2 W3 b3 W4 b4 adj) (row z r) a b := by
  unfold val_main_v35 val_main_v32 val_main_v30 val_main_v28 val_main_v31 val_main_v29 val_main_v34 val_main_v33
  show broadcastInDim S65536x20x20 ![0, 1, 2] bcast_S65536x20x1_S65536x20x20_0_1_2
          (broadcastInDim S65536x20x1 ![0, 1] bcast_S65536x20_S65536x20x1_0_1
            (val_main_v27 (F := Ideal) z W1 b1 W2 b2 W3 b3 W4 b4)) (ix3 r a b)
        * broadcastInDim S65536x20x20 ![0, 1, 2] bcast_S65536x1x20_S65536x20x20_0_1_2
          (broadcastInDim S65536x1x20 ![0, 2] bcast_S65536x20_S65536x1x20_0_2
            (val_main_v27 (F := Ideal) z W1 b1 W2 b2 W3 b3 W4 b4)) (ix3 r a b)
        * broadcastInDim S65536x20x20 ![0, 1, 2] bcast_S1x20x20_S65536x20x20_0_1_2
          (broadcastInDim S1x20x20 ![1, 2] bcast_S20x20_S1x20x20_1_2 adj) (ix3 r a b) = _
  rw [Cert.Lib.Outer.hostLast_entry (A := 65536) (B := 20) (C := 20),
    Cert.Lib.Outer.hostMiddle_entry (A := 65536) (B := 20) (C := 20),
    Cert.Lib.Outer.hostFirst_entry (A := 65536) (B := 20) (C := 20),
    face_entry z W1 b1 W2 b2 W3 b3 W4 b4 adj, face_entry z W1 b1 W2 b2 W3 b3 W4 b4 adj]
  rfl

/-! ## The three results as whole arrays -/

theorem probs_eq : val_main_v24 (F := Ideal) z W1 b1 W2 b2 W3 b3 W4 b4 = probsOf (given W1 b1 W2 b2 W3 b3 W4 b4 adj) z := by
  funext i
  obtain ⟨r, j, rfl⟩ : ∃ (r : Fin 65536) (j : Fin 20), i = ix2 r j := ⟨i 0, i 1, eq_ix2 i⟩
  exact prob_entry z W1 b1 W2 b2 W3 b3 W4 b4 adj r j

theorem faces_eq : val_main_v27 (F := Ideal) z W1 b1 W2 b2 W3 b3 W4 b4 = facesOf (given W1 b1 W2 b2 W3 b3 W4 b4 adj) z := by
  funext i
  obtain ⟨r, j, rfl⟩ : ∃ (r : Fin 65536) (j : Fin 20), i = ix2 r j := ⟨i 0, i 1, eq_ix2 i⟩
  exact face_entry z W1 b1 W2 b2 W3 b3 W4 b4 adj r j

theorem pairs_eq :
    val_main_v35 (F := Ideal) z W1 b1 W2 b2 W3 b3 W4 b4 adj = pairsOf (given W1 b1 W2 b2 W3 b3 W4 b4 adj) z := by
  funext i
  obtain ⟨r, a, b, rfl⟩ : ∃ (r : Fin 65536) (a b : Fin 20), i = ix3 r a b := ⟨i 0, i 1, i 2, eq_ix3 i⟩
  exact pair_entry z W1 b1 W2 b2 W3 b3 W4 b4 adj r a b

end Cert.ReferenceIdeal.RefValue

end
-- ==== Proof.lean ====
/-
  A decoder of icosahedron faces: a batch of 65536 rows of 512 numbers goes through three dense layers with the
  rectifier `max · 0` (to 512, 256 and 128 numbers) and a fourth dense layer to 20 logits; the probability of each of
  the twenty faces is the logistic of its logit; a face is kept when its probability exceeds one half; and the row's
  20 × 20 adjacency matrix is the outer product of its kept faces with themselves, scaled entry by entry by the fixed
  adjacency of the icosahedron's faces. The results are the adjacency matrices, the kept faces, the probabilities and
  a constant zero.

  The kernel computes 512 rows per grid point with the matrix unit, after rounding the operands of each product to
  a shorter float format; the reference computes all rows at once with plain products and spells the logistic as
  `1 / (1 + e^(-v))`. On the extended reals a change of float format is the identity, a matrix-unit product into a zero
  accumulator and a plain product are the same finite sum, and the logistic operation is that quotient by definition;
  both programs apply the same operations in the same order, so no algebraic law beyond these readings is needed and
  the finiteness of the inputs is not used. Since every output row is a function of its own input row alone
  (Proof/Decoder.lean), a block of the kernel's result is the corresponding block of the reference's
  (Proof/Payload.lean, Proof/Blocks.lean for the kernel; Proof/RefRead.lean for the reference).
-/
import proofs.«125801_j3453153706364_1_alg».proof.Defs
import proofs.«125801_j3453153706364_1_alg».proof.Proof.Gen.Kernel
import proofs.«125801_j3453153706364_1_alg».proof.Proof.Gen.Kernel.Skeleton
import proofs.«125801_j3453153706364_1_alg».proof.Proof.Gen.Kernel.Launch
import proofs.«125801_j3453153706364_1_alg».proof.Proof.Gen.Kernel.Points
import proofs.«125801_j3453153706364_1_alg».proof.Proof.Gen.Kernel.Frame
import proofs.«125801_j3453153706364_1_alg».proof.Proof.Gen.KernelIdeal
import proofs.«125801_j3453153706364_1_alg».proof.Proof.Gen.KernelIdeal.Skeleton
import proofs.«125801_j3453153706364_1_alg».proof.Proof.Gen.KernelIdeal.Launch
import proofs.«125801_j3453153706364_1_alg».proof.Proof.Gen.KernelIdeal.Points
import proofs.«125801_j3453153706364_1_alg».proof.Proof.Gen.KernelIdeal.Frame
import proofs.«125801_j3453153706364_1_alg».proof.Proof.Gen.ReferenceIdeal
import proofs.«125801_j3453153706364_1_alg».proof.Proof.Gen.Pre_finite_inputs
import proofs.«125801_j3453153706364_1_alg».proof.Proof.Gen.ReferenceIdeal.Run
import proofs.«125801_j3453153706364_1_alg».proof.Proof.Gen.ReferenceIdeal.Read
import proofs.«125801_j3453153706364_1_alg».proof.Proof.Blocks
import proofs.«125801_j3453153706364_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with what it says of the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealized kernel is the kernel's own text read on the extended reals: nothing was rewritten. -/
theorem preserves : Cert.preserves_Kernel_KernelIdeal := trivial

/-- From arguments that agree, both programs end with the adjacency matrices, the kept faces and the probabilities at
    the decoder's functions of the argument arrays, and the scalar result at the zero word. -/
theorem algebraic : Cert.algebraic_KernelIdeal_ReferenceIdeal := by
  intro m ρ m' ρ' _ hagree
  refine ⟨_, _, _, _, Cert.KernelIdeal.Blocks.run m ρ, ?_⟩
  refine (θ_run Cert.ReferenceIdeal.defs _ _).mono (fun _ h c => ?_) (Cert.ReferenceIdeal.Value.run (F := Ideal) m' ρ')
  obtain ⟨h35, h27, h24, hcst, hargs⟩ := h c
  obtain ⟨a0, a1, a2, a3, a4, a5, a6, a7, a8, a9⟩ := hagree c
  refine ⟨?_, ?_, ?_, hcst, hargs⟩
  · exact h35.trans ((Cert.ReferenceIdeal.Read.val_main_v35_eq _ _ _ _ _ _ _ _ _ _).trans
      ((Cert.ReferenceIdeal.RefValue.pairs_eq _ _ _ _ _ _ _ _ _ _).trans (by rw [a0, a1, a2, a3, a4, a5, a6, a7, a8, a9]; rfl)))
  · exact h27.trans ((Cert.ReferenceIdeal.Read.val_main_v27_eq _ _ _ _ _ _ _ _ _).trans
      ((Cert.ReferenceIdeal.RefValue.faces_eq _ _ _ _ _ _ _ _ _
        (m' ((c.tc : Thread Cert.ReferenceIdeal.nD Cert.ReferenceIdeal.τ).loc Cert.ReferenceIdeal.main_arg9))).trans
        (by rw [a0, a1, a2, a3, a4, a5, a6, a7, a8, a9]; rfl)))
  · exact h24.trans ((Cert.ReferenceIdeal.Read.val_main_v24_eq _ _ _ _ _ _ _ _ _).trans
      ((Cert.ReferenceIdeal.RefValue.probs_eq _ _ _ _ _ _ _ _ _
        (m' ((c.tc : Thread Cert.ReferenceIdeal.nD Cert.ReferenceIdeal.τ).loc Cert.ReferenceIdeal.main_arg9))).trans
        (by rw [a0, a1, a2, a3, a4, a5, a6, a7, a8, a9]; rfl)))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
